-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x250000 : Shape := ⟨2, ![2, 250000]⟩
abbrev S256x768 : Shape := ⟨2, ![256, 768]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x256 .f32) (main_arg6 : FVec F S2 .f32) (main_arg7 : FVec F S2x256 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S50000x768 .f32) (main_arg1 : IVec S2x250000 32) (main_arg2 : FVec F S256x768 .f32) (main_arg3 : FVec F S256 .f32) (main_arg4 : FVec F S256x768 .f32) (main_arg5 : FVec F S2x256 .f32) (main_arg6 : FVec F S2 .f32) (main_arg7 : FVec F S2x256 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x768 .f32 := Host.absf main_arg4
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg5 main_arg6 main_arg7 main_v13 main_v16
-- ==== Kernel.lean ====
abbrev S50000x768 : Shape := ⟨2, ![50000, 768]⟩
abbrev S2x250000 : Shape := ⟨2, ![2, 250000]⟩
abbrev S256x768 : Shape := ⟨2, ![256, 768]⟩
abbrev S256 : Shape := ⟨1, ![256]⟩
abbrev S2x256 : Shape := ⟨2, ![2, 256]⟩
abbrev S2 : Shape := ⟨1, ![2]⟩
abbrev S1x250000 : Shape := ⟨2, ![1, 250000]⟩
abbrev S250000 : Shape := ⟨1, ![250000]⟩
abbrev S_ : Shape := ⟨0, ![]⟩
abbrev S50000 : Shape := ⟨1, ![50000]⟩
abbrev S250000x1 : Shape := ⟨2, ![250000, 1]⟩
abbrev S50000x1 : Shape := ⟨2, ![50000, 1]⟩
abbrev S768x256 : Shape := ⟨2, ![768, 256]⟩
abbrev S50000x256 : Shape := ⟨2, ![50000, 256]⟩
abbrev S2000x768 : Shape := ⟨2, ![2000, 768]⟩
abbrev S2000x256 : Shape := ⟨2, ![2000, 256]⟩
abbrev S250000x256 : Shape := ⟨2, ![250000, 256]⟩
abbrev S2000x1 : Shape := ⟨2, ![2000, 1]⟩
abbrev S1x256 : Shape := ⟨2, ![1, 256]⟩
abbrev S256x2 : Shape := ⟨2, ![256, 2]⟩
abbrev S50000x2 : Shape := ⟨2, ![50000, 2]⟩
abbrev S5000x256 : Shape := ⟨2, ![5000, 256]⟩
abbrev S5000x2 : Shape := ⟨2, ![5000, 2]⟩
abbrev S250000x2 : Shape := ⟨2, ![250000, 2]⟩
abbrev S5000x1 : Shape := ⟨2, ![5000, 1]⟩
abbrev S1x2 : Shape := ⟨2, ![1, 2]⟩

abbrev nBuf : Space → Nat
  | .hbm => 60
  | .vmem => 34
  | .smem => 0
  | _ => 0

abbrev bufTy : (tb : Table) → Fin (tcTables nBuf tb) → BufTy
  | .hbm, ⟨0, _⟩ => ⟨S50000x768, .f32⟩
  | .hbm, ⟨1, _⟩ => ⟨S2x250000, .i32⟩
  | .hbm, ⟨2, _⟩ => ⟨S256x768, .f32⟩
  | .hbm, ⟨3, _⟩ => ⟨S256, .f32⟩
  | .hbm, ⟨4, _⟩ => ⟨S256x768, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x250000, .i32⟩
  | .hbm, ⟨9, _⟩ => ⟨S250000, .i32⟩
  | .hbm, ⟨10, _⟩ => ⟨S1x250000, .i32⟩
  | .hbm, ⟨11, _⟩ => ⟨S250000, .i32⟩
  | .hbm, ⟨12, _⟩ => ⟨S_, .f32⟩
  | .hbm, ⟨13, _⟩ => ⟨S250000, .f32⟩
  | .hbm, ⟨14, _⟩ => ⟨S_, .f32⟩
  | .hbm, ⟨15, _⟩ => ⟨S50000, .f32⟩
  | .hbm, ⟨16, _⟩ => ⟨S250000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S768x256, .f32⟩
  | .hbm, ⟨23, _⟩ => ⟨S768x256, .f32⟩
  | .hbm, ⟨24, _⟩ => ⟨S50000x256, .bf16⟩
  | .hbm, ⟨25, _⟩ => ⟨S50000x256, .f32⟩
  | .hbm, ⟨26, _⟩ => ⟨S_, .i32⟩
  | .hbm, ⟨27, _⟩ => ⟨S250000, .i32⟩
  | .hbm, ⟨28, _⟩ => ⟨S250000, .i1⟩
  | .hbm, ⟨29, _⟩ => ⟨S_, .i32⟩
  | .hbm, ⟨30, _⟩ => ⟨S250000, .i32⟩
  | .hbm, ⟨31, _⟩ => ⟨S250000, .i32⟩
  | .hbm, ⟨32, _⟩ => ⟨S250000, .i32⟩
  | .hbm, ⟨33, _⟩ => ⟨S250000x1, .i32⟩
  | .hbm, ⟨34, _⟩ => ⟨S250000x256, .bf16⟩
  | .hbm, ⟨35, _⟩ => ⟨S250000x256, .f32⟩
  | .hbm, ⟨36, _⟩ => ⟨S_, .f32⟩
  | .hbm, ⟨37, _⟩ => ⟨S50000x256, .f32⟩
  | .hbm, ⟨38, _⟩ => ⟨S250000x1, .i32⟩
  | .hbm, ⟨39, _⟩ => ⟨S50000x256, .f32⟩
  | .hbm, ⟨40, _⟩ => ⟨S50000x256, .bf16⟩
  | .hbm, ⟨41, _⟩ => ⟨S256x2, .f32⟩
  | .hbm, ⟨42, _⟩ => ⟨S256x2, .f32⟩
  | .hbm, ⟨43, _⟩ => ⟨S50000x2, .bf16⟩
  | .hbm, ⟨44, _⟩ => ⟨S50000x2, .f32⟩
  | .hbm, ⟨45, _⟩ => ⟨S_, .i32⟩
  | .hbm, ⟨46, _⟩ => ⟨S250000, .i32⟩
  | .hbm, ⟨47, _⟩ => ⟨S250000, .i1⟩
  | .hbm, ⟨48, _⟩ => ⟨S_, .i32⟩
  | .hbm, ⟨49, _⟩ => ⟨S250000, .i32⟩
  | .hbm, ⟨50, _⟩ => ⟨S250000, .i32⟩
  | .hbm, ⟨51, _⟩ => ⟨S250000, .i32⟩
  | .hbm, ⟨52, _⟩ => ⟨S250000x1, .i32⟩
  | .hbm, ⟨53, _⟩ => ⟨S250000x2, .bf16⟩
  | .hbm, ⟨54, _⟩ => ⟨S250000x2, .f32⟩
  | .hbm, ⟨55, _⟩ => ⟨S_, .f32⟩
  | .hbm, ⟨56, _⟩ => ⟨S50000x2, .f32⟩
  | .hbm, ⟨57, _⟩ => ⟨S250000x1, .i32⟩
  | .hbm, ⟨58, _⟩ => ⟨S50000x2, .f32⟩
  | .hbm, ⟨59, _⟩ => ⟨S50000x2, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S768x256, .f32⟩
  | .local _ .vmem, ⟨4, _⟩ => ⟨S2000x256, .bf16⟩
  | .local _ .vmem, ⟨5, _⟩ => ⟨S2000x256, .bf16⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S2000x256, .f32⟩
  | .local _ .vmem, ⟨13, _⟩ => ⟨S2000x256, .f32⟩
  | .local _ .vmem, ⟨14, _⟩ => ⟨S256, .f32⟩
  | .local _ .vmem, ⟨15, _⟩ => ⟨S2000x256, .bf16⟩
  | .local _ .vmem, ⟨16, _⟩ => ⟨S2000x256, .bf16⟩
  | .local _ .vmem, ⟨17, _⟩ => ⟨S5000x256, .bf16⟩
  | .local _ .vmem, ⟨18, _⟩ => ⟨S5000x256, .bf16⟩
  | .local _ .vmem, ⟨19, _⟩ => ⟨S256x2, .f32⟩
  | .local _ .vmem, ⟨20, _⟩ => ⟨S256x2, .f32⟩
  | .local _ .vmem, ⟨21, _⟩ => ⟨S5000x2, .bf16⟩
  | .local _ .vmem, ⟨22, _⟩ => ⟨S5000x2, .bf16⟩
  | .local _ .vmem, ⟨23, _⟩ => ⟨S5000x2, .f32⟩
  | .local _ .vmem, ⟨24, _⟩ => ⟨S5000x2, .f32⟩
  | .local _ .vmem, ⟨25, _⟩ => ⟨S5000x2, .f32⟩
  | .local _ .vmem, ⟨26, _⟩ => ⟨S5000x2, .f32⟩
  | .local _ .vmem, ⟨27, _⟩ => ⟨S5000x1, .f32⟩
  | .local _ .vmem, ⟨28, _⟩ => ⟨S5000x1, .f32⟩
  | .local _ .vmem, ⟨29, _⟩ => ⟨S5000x2, .f32⟩
  | .local _ .vmem, ⟨30, _⟩ => ⟨S5000x2, .f32⟩
  | .local _ .vmem, ⟨31, _⟩ => ⟨S2, .f32⟩
  | .local _ .vmem, ⟨32, _⟩ => ⟨S5000x2, .f32⟩
  | .local _ .vmem, ⟨33, _⟩ => ⟨S5000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  transposes_S256x768_S768x256_1_0 : S256x768.Transposes [1, 0] S768x256
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  transposes_S2x256_S256x2_1_0 : S2x256.Transposes [1, 0] S256x2
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S5000x2_S5000x2_0_0 : ∀ a, (![0, 0] : Fin 2 → Nat) a + S5000x2.size a ≤ S5000x2.size a
  h_S5000x2 : 0 < S5000x2.numel
  packedbf16_S5000x2_S5000x2_0_0 : (Rect.unit (s := S5000x2) ![0, 0] S5000x2.size inb_S5000x2_S5000x2_0_0).PackedRows (EltTy.packing .bf16)
  bcast_S_S50000x2 : S_.BroadcastsInDim S50000x2 (![] : Fin 0 → Fin S50000x2.rank)
  shapeCasts_S5000x2_S5000x2 : S5000x2.ShapeCasts S5000x2
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x2 : S5000x1.Broadcasts S5000x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  scatter_S50000_S250000x1_S250000_n_0_0_1_wf : ScatterDims.WF S50000 S250000x1 S250000 [] [0] [0] 1
  dot_S2000x768_S768x256_S2000x256_1_0_0_1_n_n_wf : DotDims.WF S2000x768 S768x256 S2000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S5000x256_S256x2_S5000x2_1_0_0_1_n_n_wf : DotDims.WF S5000x256 S256x2 S5000x2 [1] [0] [0] [1] [] []
  gather_S50000x2_S250000x1_S250000x2_1_0_n_n_0_1_12_wf : GatherDims.WF S50000x2 S250000x1 S250000x2 [1] [0] [] [0] [] 1 ![1, 2]
  scatter_S50000x2_S250000x1_S250000x2_1_0_0_1_wf : ScatterDims.WF S50000x2 S250000x1 S250000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .f32 = 32 ∨ (Rect.block (s := S768x256) S768x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .f32 = 32 ∨ (Rect.block (s := S256x2) S256x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x2.size a ≤ S256x2.size a
  hwx2_2 : ∀ i : grid2.Coords, EltTy.bits .f32 = 32 ∨ (Rect.block (s := S256x2) S256x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S50000x2.size a
  hwx2_3 : ∀ i : grid2.Coords, EltTy.bits .bf16 = 32 ∨ (Rect.block (s := S50000x2) S5000x2.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S50000x2.size a
  hwx2_4 : ∀ i : grid2.Coords, EltTy.bits .f32 = 32 ∨ (Rect.block (s := S50000x2) S5000x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S50000x2.size a
  hwx3_0 : ∀ i : grid3.Coords, EltTy.bits .f32 = 32 ∨ (Rect.block (s := S50000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S50000x2.size a
  hwx3_2 : ∀ i : grid3.Coords, EltTy.bits .f32 = 32 ∨ (Rect.block (s := S50000x2) S5000x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2.size a ≤ S2.size a
  hwx3_3 : ∀ i : grid3.Coords, EltTy.bits .f32 = 32 ∨ (Rect.block (s := S2) S2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x2.size a ≤ S50000x2.size a
  hwx3_4 : ∀ i : grid3.Coords, EltTy.bits .f32 = 32 ∨ (Rect.block (s := S50000x2) S5000x2.size (cc3_transform_4 i) (hinb3_4 i)).WholeWords (EltTy.packing .f32)

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf
def gather_S50000x2_S250000x1_S250000x2_1_0_n_n_0_1_12 : GatherDims S50000x2 S250000x1 S250000x2 where
  offsetDims := [1]
  collapsedSliceDims := [0]
  operandBatchingDims := []
  startIndicesBatchingDims := []
  startIndexMap := [0]
  indexVectorDim := 1
  sliceSizes := ![1, 2]
  wf := gather_S50000x2_S250000x1_S250000x2_1_0_n_n_0_1_12_wf
def scatter_S50000x2_S250000x1_S250000x2_1_0_0_1 : ScatterDims S50000x2 S250000x1 S250000x2 where
  updateWindowDims := [1]
  insertedWindowDims := [0]
  scatterDimsToOperandDims := [0]
  indexVectorDim := 1
  wf := scatter_S50000x2_S250000x1_S250000x2_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_1) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S256x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28_0) S5000x2.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28_1) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v39) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28_1) S5000x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S5000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x768 : Shape := ⟨2, ![50000, 768]⟩
abbrev S2x250000 : Shape := ⟨2, ![2, 250000]⟩
abbrev S256x768 : Shape := ⟨2, ![256, 768]⟩
abbrev S256 : Shape := ⟨1, ![256]⟩
abbrev S2x256 : Shape := ⟨2, ![2, 256]⟩
abbrev S2 : Shape := ⟨1, ![2]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x768 : Shape := ⟨2, ![250000, 768]⟩
abbrev S50000 : Shape := ⟨1, ![50000]⟩
abbrev S50000x1 : Shape := ⟨2, ![50000, 1]⟩
abbrev S768x256 : Shape := ⟨2, ![768, 256]⟩
abbrev S50000x256 : Shape := ⟨2, ![50000, 256]⟩
abbrev S1x256 : Shape := ⟨2, ![1, 256]⟩
abbrev S250000x256 : Shape := ⟨2, ![250000, 256]⟩
abbrev S256x2 : Shape := ⟨2, ![256, 2]⟩
abbrev S50000x2 : Shape := ⟨2, ![50000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x250000, .i32⟩
  | .hbm, ⟨2, _⟩ => ⟨S256x768, .f32⟩
  | .hbm, ⟨3, _⟩ => ⟨S256, .f32⟩
  | .hbm, ⟨4, _⟩ => ⟨S256x768, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x250000, .i32⟩
  | .hbm, ⟨9, _⟩ => ⟨S250000, .i32⟩
  | .hbm, ⟨10, _⟩ => ⟨S1x250000, .i32⟩
  | .hbm, ⟨11, _⟩ => ⟨S250000, .i32⟩
  | .hbm, ⟨12, _⟩ => ⟨S_, .i32⟩
  | .hbm, ⟨13, _⟩ => ⟨S250000, .i32⟩
  | .hbm, ⟨14, _⟩ => ⟨S250000, .i1⟩
  | .hbm, ⟨15, _⟩ => ⟨S_, .i32⟩
  | .hbm, ⟨16, _⟩ => ⟨S250000, .i32⟩
  | .hbm, ⟨17, _⟩ => ⟨S250000, .i32⟩
  | .hbm, ⟨18, _⟩ => ⟨S250000, .i32⟩
  | .hbm, ⟨19, _⟩ => ⟨S250000x1, .i32⟩
  | .hbm, ⟨20, _⟩ => ⟨S250000x768, .f32⟩
  | .hbm, ⟨21, _⟩ => ⟨S_, .f32⟩
  | .hbm, ⟨22, _⟩ => ⟨S50000x768, .f32⟩
  | .hbm, ⟨23, _⟩ => ⟨S250000x1, .i32⟩
  | .hbm, ⟨24, _⟩ => ⟨S50000x768, .f32⟩
  | .hbm, ⟨25, _⟩ => ⟨S_, .f32⟩
  | .hbm, ⟨26, _⟩ => ⟨S250000, .f32⟩
  | .hbm, ⟨27, _⟩ => ⟨S_, .f32⟩
  | .hbm, ⟨28, _⟩ => ⟨S50000, .f32⟩
  | .hbm, ⟨29, _⟩ => ⟨S250000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x768, .f32⟩
  | .hbm, ⟨36, _⟩ => ⟨S50000x768, .f32⟩
  | .hbm, ⟨37, _⟩ => ⟨S768x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S768x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S250000, .i32⟩
  | .hbm, ⟨50, _⟩ => ⟨S250000, .i1⟩
  | .hbm, ⟨51, _⟩ => ⟨S_, .i32⟩
  | .hbm, ⟨52, _⟩ => ⟨S250000, .i32⟩
  | .hbm, ⟨53, _⟩ => ⟨S250000, .i32⟩
  | .hbm, ⟨54, _⟩ => ⟨S250000, .i32⟩
  | .hbm, ⟨55, _⟩ => ⟨S250000x1, .i32⟩
  | .hbm, ⟨56, _⟩ => ⟨S250000x256, .f32⟩
  | .hbm, ⟨57, _⟩ => ⟨S_, .f32⟩
  | .hbm, ⟨58, _⟩ => ⟨S50000x256, .f32⟩
  | .hbm, ⟨59, _⟩ => ⟨S250000x1, .i32⟩
  | .hbm, ⟨60, _⟩ => ⟨S50000x256, .f32⟩
  | .hbm, ⟨61, _⟩ => ⟨S_, .f32⟩
  | .hbm, ⟨62, _⟩ => ⟨S250000, .f32⟩
  | .hbm, ⟨63, _⟩ => ⟨S_, .f32⟩
  | .hbm, ⟨64, _⟩ => ⟨S50000, .f32⟩
  | .hbm, ⟨65, _⟩ => ⟨S250000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x2, .f32⟩
  | .hbm, ⟨74, _⟩ => ⟨S50000x2, .f32⟩
  | .hbm, ⟨75, _⟩ => ⟨S1x2, .f32⟩
  | .hbm, ⟨76, _⟩ => ⟨S50000x2, .f32⟩
  | .hbm, ⟨77, _⟩ => ⟨S50000x2, .f32⟩
  | .hbm, ⟨78, _⟩ => ⟨S256x2, .f32⟩
  | .hbm, ⟨79, _⟩ => ⟨S50000x2, .f32⟩
  | .hbm, ⟨80, _⟩ => ⟨S50000x2, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  bcast_S_S50000x768 : S_.BroadcastsInDim S50000x768 (![] : Fin 0 → Fin S50000x768.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x768_0_1 : S50000x1.BroadcastsInDim S50000x768 (![0, 1] : Fin 2 → Fin S50000x768.rank)
  transposes_S256x768_S768x256_1_0 : S256x768.Transposes [1, 0] S768x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S2x256_S256x2_1_0 : S2x256.Transposes [1, 0] S256x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x768_S250000x1_S250000x768_1_0_n_n_0_1_1768_wf : GatherDims.WF S50000x768 S250000x1 S250000x768 [1] [0] [] [0] [] 1 ![1, 768]
  scatter_S50000x768_S250000x1_S250000x768_1_0_0_1_wf : ScatterDims.WF S50000x768 S250000x1 S250000x768 [1] [0] [0] 1
  scatter_S50000_S250000x1_S250000_n_0_0_1_wf : ScatterDims.WF S50000 S250000x1 S250000 [] [0] [0] 1
  dot_S50000x768_S768x256_S50000x256_1_0_0_1_n_n_wf : DotDims.WF S50000x768 S768x256 S50000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S50000x256_S256x2_S50000x2_1_0_0_1_n_n_wf : DotDims.WF S50000x256 S256x2 S50000x2 [1] [0] [0] [1] [] []

variable [Facts₀]

def gather_S50000x768_S250000x1_S250000x768_1_0_n_n_0_1_1768 : GatherDims S50000x768 S250000x1 S250000x768 where
  offsetDims := [1]
  collapsedSliceDims := [0]
  operandBatchingDims := []
  startIndicesBatchingDims := []
  startIndexMap := [0]
  indexVectorDim := 1
  sliceSizes := ![1, 768]
  wf := gather_S50000x768_S250000x1_S250000x768_1_0_n_n_0_1_1768_wf
def scatter_S50000x768_S250000x1_S250000x768_1_0_0_1 : ScatterDims S50000x768 S250000x1 S250000x768 where
  updateWindowDims := [1]
  insertedWindowDims := [0]
  scatterDimsToOperandDims := [0]
  indexVectorDim := 1
  wf := scatter_S50000x768_S250000x1_S250000x768_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KRun.lean ====
/-
  The idealized kernel's run with its result named: every weakly fair execution of the program ends, nothing faulting,
  with the result array at what the last of the four pipelines leaves in it (the fold of the program's segments at the
  result's buffer) and the eight argument arrays as launched. The run is the launch of the same eight segments the
  frame is proved over (four stretches of host operations, four pipelines); the only addition is that the final
  thread state, which holds every unscoped buffer at the fold's contents, is read at the result's buffer too.
-/
import proofs.«105053_j57200374448341_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the fold's contents of its buffer. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Val

end
-- ==== Proof.LibRealSums.lean ====
import Idealize.ShloMosaic.PureOps.Ideal

/-!
# Finite sums of real numbers inside the extended reals

On the extended reals multiplication does not distribute over addition at the infinities
(`(⊤ + ⊥) * c` and `⊤ * c + ⊥ * c` differ, and a product with `0` forgets an infinity), so
the usual rearrangements of a weighted finite sum hold only when every entry is a real number.
This file names that hypothesis, `IsReal`, shows that it is kept by the arithmetic that builds
a weighted sum, and proves the two rearrangements of a weighted sum that a normalised graph
convolution needs:

* a factor common to all terms may be applied after the sum instead of inside it
  (`sum_mul_mul_right`);
* a linear map applied to a weighted sum of vectors is the weighted sum of the images
  (`sum_proj_of_sum_scaled`): distributivity together with the exchange of two finite sums.
-/

open scoped BigOperators

namespace RealSums

/-- An extended real is *real* when it is the image of a real number, that is, neither
    `⊤` nor `⊥`. -/
def IsReal (a : EReal) : Prop := ∃ r : ℝ, a = (r : EReal)

/-! ### Closure of the real numbers under the arithmetic of a weighted sum -/

/-- The image of a real number in the extended reals is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- A real extended real is not `⊤`. -/
theorem IsReal.ne_top {a : EReal} (ha : IsReal a) : a ≠ ⊤ := by
  obtain ⟨x, rfl⟩ := ha
  exact EReal.coe_ne_top x

/-- A real extended real is not `⊥`. -/
theorem IsReal.ne_bot {a : EReal} (ha : IsReal a) : a ≠ ⊥ := by
  obtain ⟨x, rfl⟩ := ha
  exact EReal.coe_ne_bot x

/-- An extended real is real exactly when it is neither `⊥` nor `⊤`. -/
theorem isReal_iff_ne {a : EReal} : IsReal a ↔ a ≠ ⊥ ∧ a ≠ ⊤ :=
  ⟨fun h => ⟨h.ne_bot, h.ne_top⟩, fun h => ⟨a.toReal, (EReal.coe_toReal h.2 h.1).symm⟩⟩

/-- The sum of two real numbers is real. -/
theorem isReal_add {a b : EReal} (ha : IsReal a) (hb : IsReal b) : IsReal (a + b) := by
  obtain ⟨x, rfl⟩ := ha
  obtain ⟨y, rfl⟩ := hb
  exact ⟨x + y, (EReal.coe_add x y).symm⟩

/-- The product of two real numbers is real. -/
theorem isReal_mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is real. -/
theorem isReal_neg {a : EReal} (ha : IsReal a) : IsReal (-a) := by
  obtain ⟨x, rfl⟩ := ha
  exact ⟨-x, (EReal.coe_neg x).symm⟩

/-- The difference of two real numbers is real. -/
theorem isReal_sub {a b : EReal} (ha : IsReal a) (hb : IsReal b) : IsReal (a - b) := by
  obtain ⟨x, rfl⟩ := ha
  obtain ⟨y, rfl⟩ := hb
  exact ⟨x - y, (EReal.coe_sub x y).symm⟩

/-- The larger of two real numbers is real (it is one of the two). -/
theorem isReal_max {a b : EReal} (ha : IsReal a) (hb : IsReal b) : IsReal (max a b) := by
  rcases le_total a b with h | h
  · rw [max_eq_right h]; exact hb
  · rw [max_eq_left h]; exact ha

/-- The smaller of two real numbers is real (it is one of the two). -/
theorem isReal_min {a b : EReal} (ha : IsReal a) (hb : IsReal b) : IsReal (min a b) := by
  rcases le_total a b with h | h
  · rw [min_eq_left h]; exact ha
  · rw [min_eq_right h]; exact hb

/-- A finite sum of real numbers is real. -/
theorem isReal_sum {ι : Type*} (s : Finset ι) (f : ι → EReal)
    (h : ∀ i ∈ s, IsReal (f i)) : IsReal (∑ i ∈ s, f i) :=
  Finset.sum_induction f IsReal (fun _ _ => isReal_add) isReal_zero h

/-- A sum of real numbers over all of a finite type is real. -/
theorem isReal_sum_univ {κ : Type*} [Fintype κ] (f : κ → EReal)
    (h : ∀ k, IsReal (f k)) : IsReal (∑ k, f k) :=
  isReal_sum Finset.univ f (fun k _ => h k)

/-- A natural number is real. -/
theorem isReal_natCast (n : ℕ) : IsReal ((n : ℕ) : EReal) :=
  ⟨(n : ℝ), (EReal.coe_natCast (n := n)).symm⟩

/-- A count, written as a sum of ones over a finite set, is real. -/
theorem isReal_sum_one {ι : Type*} (s : Finset ι) : IsReal (∑ _i ∈ s, (1 : EReal)) :=
  isReal_sum s (fun _ => 1) (fun _ _ => isReal_one)

/-- The reciprocal square root of a positive real number is the real number `(√r)⁻¹`. -/
theorem rsqrt_coe_of_pos (r : ℝ) (hr : 0 < r) :
    Idealize.ShloMosaic.Ideal.rsqrt (r : EReal) = (((Real.sqrt r)⁻¹ : ℝ) : EReal) := by
  rw [Idealize.ShloMosaic.Ideal.rsqrt_coe, if_neg (not_lt.mpr hr.le), if_neg hr.ne']

/-- The reciprocal square root of a positive real number is real. -/
theorem isReal_rsqrt_coe (r : ℝ) (hr : 0 < r) :
    IsReal (Idealize.ShloMosaic.Ideal.rsqrt (r : EReal)) :=
  ⟨(Real.sqrt r)⁻¹, rsqrt_coe_of_pos r hr⟩

/-- The reciprocal square root of a positive real extended real is real. -/
theorem isReal_rsqrt {a : EReal} (ha : IsReal a) (hpos : 0 < a) :
    IsReal (Idealize.ShloMosaic.Ideal.rsqrt a) := by
  obtain ⟨x, rfl⟩ := ha
  exact isReal_rsqrt_coe x (EReal.coe_pos.mp hpos)

/-! ### The coercion from the reals commutes with finite sums -/

/-- The image in the extended reals of a finite sum of real numbers is the sum of the images. -/
theorem coe_sum {ι : Type*} (s : Finset ι) (f : ι → ℝ) :
    ((∑ i ∈ s, f i : ℝ) : EReal) = ∑ i ∈ s, (f i : EReal) := by
  classical
  refine Finset.induction_on s ?_ ?_
  · simp only [Finset.sum_empty, EReal.coe_zero]
  · intro a t hat ih
    rw [Finset.sum_insert hat, Finset.sum_insert hat, EReal.coe_add, ih]

/-! ### Distributivity over real numbers -/

/-- Multiplication on the right distributes over the sum of two real numbers. -/
theorem add_mul_of_isReal {a b c : EReal} (ha : IsReal a) (hb : IsReal b) (hc : IsReal c) :
    (a + b) * c = a * c + b * c := by
  obtain ⟨x, rfl⟩ := ha
  obtain ⟨y, rfl⟩ := hb
  obtain ⟨z, rfl⟩ := hc
  rw [← EReal.coe_add, ← EReal.coe_mul, ← EReal.coe_mul, ← EReal.coe_mul, ← EReal.coe_add,
    add_mul]

/-- Multiplication on the left distributes over the sum of two real numbers. -/
theorem mul_add_of_isReal {a b c : EReal} (ha : IsReal a) (hb : IsReal b) (hc : IsReal c) :
    a * (b + c) = a * b + a * c := by
  rw [mul_comm a (b + c), add_mul_of_isReal hb hc ha, mul_comm b a, mul_comm c a]

/-- A real factor on the right distributes over a finite sum of real numbers. -/
theorem sum_mul_of_isReal {ι : Type*} (s : Finset ι) (f : ι → EReal) (d : EReal)
    (hf : ∀ i ∈ s, IsReal (f i)) (hd : IsReal d) :
    (∑ i ∈ s, f i) * d = ∑ i ∈ s, f i * d := by
  classical
  revert hf
  refine Finset.induction_on s ?_ ?_
  · intro _
    simp only [Finset.sum_empty, zero_mul]
  · intro a t hat ih hf
    have hft : ∀ i ∈ t, IsReal (f i) := fun i hi => hf i (Finset.mem_insert_of_mem hi)
    rw [Finset.sum_insert hat, Finset.sum_insert hat,
      add_mul_of_isReal (hf a (Finset.mem_insert_self a t)) (isReal_sum t f hft) hd, ih hft]

/-- A real factor on the left distributes over a finite sum of real numbers. -/
theorem mul_sum_of_isReal {ι : Type*} (s : Finset ι) (f : ι → EReal) (d : EReal)
    (hf : ∀ i ∈ s, IsReal (f i)) (hd : IsReal d) :
    d * (∑ i ∈ s, f i) = ∑ i ∈ s, d * f i := by
  rw [mul_comm, sum_mul_of_isReal s f d hf hd]
  exact Finset.sum_congr rfl (fun i _ => mul_comm (f i) d)

/-! ### The two rearrangements of a weighted sum -/

/-- A common real factor may be applied after a weighted sum of real numbers instead of to
    each term: `(∑ₑ aₑ bₑ) d = ∑ₑ aₑ (bₑ d)`. -/
theorem sum_mul_mul_right {ι : Type*} (s : Finset ι) (a b : ι → EReal) (d : EReal)
    (ha : ∀ e ∈ s, IsReal (a e)) (hb : ∀ e ∈ s, IsReal (b e)) (hd : IsReal d) :
    (∑ e ∈ s, a e * b e) * d = ∑ e ∈ s, a e * (b e * d) := by
  rw [sum_mul_of_isReal s (fun e => a e * b e) d (fun e he => isReal_mul (ha e he) (hb e he)) hd]
  exact Finset.sum_congr rfl (fun e _ => mul_assoc (a e) (b e) d)

/-- A linear functional applied to a scaled weighted sum of real vectors is the weighted sum
    of its values on the vectors:
    `∑_f ((∑ₑ xₑ_f bₑ) d) w_f = ∑ₑ (∑_f xₑ_f w_f) (bₑ d)`,
    by distributivity over real numbers and the exchange of the two finite sums. -/
theorem sum_proj_of_sum_scaled {ι κ : Type*} [Fintype κ] (s : Finset ι) (x : ι → κ → EReal)
    (b : ι → EReal) (d : EReal) (w : κ → EReal)
    (hx : ∀ e ∈ s, ∀ f, IsReal (x e f)) (hb : ∀ e ∈ s, IsReal (b e)) (hd : IsReal d)
    (hw : ∀ f, IsReal (w f)) :
    ∑ f, ((∑ e ∈ s, x e f * b e) * d) * w f = ∑ e ∈ s, (∑ f, x e f * w f) * (b e * d) := by
  have hL : ∀ f, ((∑ e ∈ s, x e f * b e) * d) * w f = ∑ e ∈ s, (x e f * w f) * (b e * d) := by
    intro f
    rw [mul_assoc,
      sum_mul_of_isReal s (fun e => x e f * b e) (d * w f)
        (fun e he => isReal_mul (hx e he f) (hb e he)) (isReal_mul hd (hw f))]
    refine Finset.sum_congr rfl (fun e _ => ?_)
    rw [mul_comm d (w f), mul_mul_mul_comm]
  have hR : ∀ e ∈ s, (∑ f, x e f * w f) * (b e * d) = ∑ f, (x e f * w f) * (b e * d) := by
    intro e he
    exact sum_mul_of_isReal Finset.univ (fun f => x e f * w f) (b e * d)
      (fun f _ => isReal_mul (hx e he f) (hw f)) (isReal_mul (hb e he) hd)
  rw [Finset.sum_congr rfl (fun f _ => hL f), Finset.sum_congr rfl hR]
  exact Finset.sum_comm

end RealSums
-- ==== Proof.LibRowGatherScatter.lean ====
/-
  Rows of a matrix, gathered and scatter-added: what `stablehlo.gather` and an accumulating
  `stablehlo.scatter` of WHOLE ROWS read and hit, at coordinates.

  A node table `[N, C]` (or a vector `[N]`) is gathered at a list of `E` start indices `[E, 1]`: result row `e`
  is the operand row `idx[e, 0]`, read signed and clamped into `[0, N − 1]`. The scatter goes the other way: update
  row `e` is added into operand row `idx[e, 0]`, read signed and NOT clamped (an index outside `[0, N)` lands
  nowhere). Each statement is for an arbitrary record of dimension numbers whose fields are fixed by hypotheses, so it
  applies to any constant that has those fields.

  Pointwise: `gather_rows_row`, `gather_rows_col`, `gather_entries` (which operand element a result element reads);
  `resultIdx?_eq_some_iff`, `scatter_rows`, `scatter_entries` (which operand element an update element lands on).
  Whole arrays at an element: `gather_rows_apply`, `gather_entries_apply`, and at exact arithmetic
  `scatterAdd_rows_apply`, `scatterAdd_entries_apply` (the sum over update indices re-indexed as a sum over the
  edges that land on the row). Last, the wrap of a negative index (`select (x < 0) (x + n) x`) on an index that is
  already a row: `select_slt_addi`, `wrap_of_nonneg`, `clamp_wrap_row`.
-/
import Idealize.ShloMosaic.PureOps.Ideal
import Idealize.ShloMosaic.Lib.ValueIdx

noncomputable section

open scoped BigOperators

open Idealize.ShloMosaic Idealize.ShloMosaic.ValueIdx

namespace RowGatherScatter

/-! ## Gather of whole rows -/

/-- A gather of whole rows of a matrix (one start index per result row, the row axis collapsed, the
    column axis an offset axis of full width): result element `(e, c)` reads operand row
    `idx[e, 0]`, read signed and clamped into `[0, N − 1]`. -/
theorem gather_rows_row {N E C w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec (⟨2, ![E, 1]⟩ : Shape) w) (j : (⟨2, ![E, C]⟩ : Shape).Idx) :
    (d.operandIdx j idx 0).val = min (idx (ix2 (j 0) 0)).toInt.toNat (N - 1) := by
  obtain ⟨od, cd, ob, sb, sm, iv, ss, wf⟩ := d
  simp only at h1 h2 h3 h4 h5 h6 h7
  subst h1 h2 h3 h4 h5 h6 h7
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ hc, GatherDims.siIdx (⟨[1], [0], [], [], [0], 1, ![1, C], wf⟩ :
      GatherDims (⟨2, ![N, C]⟩ : Shape) (⟨2, ![E, 1]⟩ : Shape) (⟨2, ![E, C]⟩ : Shape)) j
      ⟨List.idxOf (0 : Fin 2) [0], hc⟩ = ix2 (j 0) 0 := by
    intro hc; funext b; refine Fin.ext ?_
    match b with
    | ⟨0, _⟩ => rfl
    | ⟨1, _⟩ => rfl
  rw [hsi]
  rfl

/-- … and column `c` of that row: the column coordinate is kept. -/
theorem gather_rows_col {N E C w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec (⟨2, ![E, 1]⟩ : Shape) w) (j : (⟨2, ![E, C]⟩ : Shape).Idx) :
    d.operandIdx j idx 1 = j 1 := by
  obtain ⟨od, cd, ob, sb, sm, iv, ss, wf⟩ := d
  simp only at h1 h2 h3 h4 h5 h6 h7
  subst h1 h2 h3 h4 h5 h6 h7
  refine Fin.ext ?_
  show GatherDims.start _ j idx 1 + GatherDims.batchCoord _ j 1 + GatherDims.offCoord _ j 1 = _
  rw [GatherDims.batchCoord_eq_zero _ _ _ List.not_mem_nil]
  unfold GatherDims.start
  rw [dif_neg (show (1 : Fin 2) ∉ [0] by decide)]
  unfold GatherDims.offCoord
  rw [dif_pos ((GatherDims.mem_sKept _ _).mpr ⟨show (1 : Fin 2) ∉ [0] by decide, List.not_mem_nil⟩)]
  simp only [Nat.add_zero, Nat.zero_add]
  rfl

/-- A gather of single entries of a vector (one start index per result entry, the one operand axis
    collapsed): result entry `e` reads operand entry `idx[e, 0]`, read signed and clamped into
    `[0, N − 1]`. -/
theorem gather_entries {N E w : Nat}
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec (⟨2, ![E, 1]⟩ : Shape) w) (j : (⟨1, ![E]⟩ : Shape).Idx) :
    (d.operandIdx j idx 0).val = min (idx (ix2 (j 0) 0)).toInt.toNat (N - 1) := by
  obtain ⟨od, cd, ob, sb, sm, iv, ss, wf⟩ := d
  simp only at h1 h2 h3 h4 h5 h6 h7
  subst h1 h2 h3 h4 h5 h6 h7
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ hc, GatherDims.siIdx (⟨[], [0], [], [], [0], 1, ![1], wf⟩ :
      GatherDims (⟨1, ![N]⟩ : Shape) (⟨2, ![E, 1]⟩ : Shape) (⟨1, ![E]⟩ : Shape)) j
      ⟨List.idxOf (0 : Fin 1) [0], hc⟩ = ix2 (j 0) 0 := by
    intro hc; funext b; refine Fin.ext ?_
    match b with
    | ⟨0, _⟩ => rfl
    | ⟨1, _⟩ => rfl
  rw [hsi]
  rfl

/-! ## Scatter of whole rows -/

/-- An update lands on operand element `i` exactly when, on every operand axis, the window's start
    (read signed, not clamped) plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro e a
      have e' := congrFun (Option.some.inj e) a
      have e'' : (d.start j idx a + (d.window j a : ℤ)).toNat = (i a).val := congrArg Fin.val e'
      have := (h a).1
      omega
    · intro e
      congr 1
      funext a
      refine Fin.ext ?_
      show (d.start j idx a + (d.window j a : ℤ)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- A scatter of whole rows into a matrix (one scatter index per update row, the row axis inserted,
    the column axis a window axis): update element `(e, c)` lands on operand element `(n, c')`
    exactly when the scatter index `idx[e, 0]`, read signed, is `n` and `c = c'`. An index outside
    `[0, N)` lands nowhere. -/
theorem scatter_rows {N E C w : Nat}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (idx : IVec (⟨2, ![E, 1]⟩ : Shape) w) (j : (⟨2, ![E, C]⟩ : Shape).Idx) (i : (⟨2, ![N, C]⟩ : Shape).Idx) :
    d.resultIdx? j idx = some i ↔ (idx (ix2 (j 0) 0)).toInt = ((i 0).val : ℤ) ∧ (j 1).val = (i 1).val := by
  rw [resultIdx?_eq_some_iff]
  obtain ⟨uw, iw, sd, iv, wf⟩ := d
  simp only at h1 h2 h3 h4
  subst h1 h2 h3 h4
  have h10 : (1 : Fin 2) ∉ [0] := by decide
  have hs0 : ScatterDims.start (⟨[1], [0], [0], 1, wf⟩ :
      ScatterDims (⟨2, ![N, C]⟩ : Shape) (⟨2, ![E, 1]⟩ : Shape) (⟨2, ![E, C]⟩ : Shape)) j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ :
      ScatterDims (⟨2, ![N, C]⟩ : Shape) (⟨2, ![E, 1]⟩ : Shape) (⟨2, ![E, C]⟩ : Shape)) j 0 = 0 := by
    unfold ScatterDims.window
    rw [dif_neg]
    intro h
    simp only [Shape.kept, List.mem_filter, decide_eq_true_eq] at h
    exact h.2 (List.mem_singleton.mpr rfl)
  have hs1 : ScatterDims.start (⟨[1], [0], [0], 1, wf⟩ :
      ScatterDims (⟨2, ![N, C]⟩ : Shape) (⟨2, ![E, 1]⟩ : Shape) (⟨2, ![E, C]⟩ : Shape)) j idx 1 = 0 := by
    unfold ScatterDims.start
    rw [dif_neg h10]
  have hw1 : ScatterDims.window (⟨[1], [0], [0], 1, wf⟩ :
      ScatterDims (⟨2, ![N, C]⟩ : Shape) (⟨2, ![E, 1]⟩ : Shape) (⟨2, ![E, C]⟩ : Shape)) j 1 = (j 1).val := by
    unfold ScatterDims.window
    rw [dif_pos (by
      simp only [Shape.kept, List.mem_filter, decide_eq_true_eq]
      exact ⟨List.mem_finRange _, h10⟩)]
    rfl
  constructor
  · intro h
    have a0 := h 0
    have a1 := h 1
    rw [hs0, hw0] at a0
    rw [hs1, hw1] at a1
    refine ⟨by simpa using a0, by exact_mod_cast (by simpa using a1)⟩
  · rintro ⟨e0, e1⟩ a
    match a with
    | ⟨0, _⟩ =>
      show ScatterDims.start _ j idx 0 + (ScatterDims.window _ j 0 : ℤ) = _
      rw [hs0, hw0, e0]; simp
    | ⟨1, _⟩ =>
      show ScatterDims.start _ j idx 1 + (ScatterDims.window _ j 1 : ℤ) = _
      rw [hs1, hw1, e1]; simp

/-- A scatter of single entries into a vector (one scatter index per update entry, the one operand
    axis inserted): update entry `e` lands on operand entry `n` exactly when the scatter index
    `idx[e, 0]`, read signed, is `n`. -/
theorem scatter_entries {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (idx : IVec (⟨2, ![E, 1]⟩ : Shape) w) (j : (⟨1, ![E]⟩ : Shape).Idx) (i : (⟨1, ![N]⟩ : Shape).Idx) :
    d.resultIdx? j idx = some i ↔ (idx (ix2 (j 0) 0)).toInt = ((i 0).val : ℤ) := by
  rw [resultIdx?_eq_some_iff]
  obtain ⟨uw, iw, sd, iv, wf⟩ := d
  simp only at h1 h2 h3 h4
  subst h1 h2 h3 h4
  have hs0 : ScatterDims.start (⟨[], [0], [0], 1, wf⟩ :
      ScatterDims (⟨1, ![N]⟩ : Shape) (⟨2, ![E, 1]⟩ : Shape) (⟨1, ![E]⟩ : Shape)) j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[], [0], [0], 1, wf⟩ :
      ScatterDims (⟨1, ![N]⟩ : Shape) (⟨2, ![E, 1]⟩ : Shape) (⟨1, ![E]⟩ : Shape)) j 0 = 0 := by
    unfold ScatterDims.window
    rw [dif_neg]
    intro h
    simp only [Shape.kept, List.mem_filter, decide_eq_true_eq] at h
    exact h.2 (List.mem_singleton.mpr rfl)
  constructor
  · intro h
    have a0 := h 0
    rw [hs0, hw0] at a0
    simpa using a0
  · intro e0 a
    match a with
    | ⟨0, _⟩ =>
      show ScatterDims.start _ j idx 0 + (ScatterDims.window _ j 0 : ℤ) = _
      rw [hs0, hw0, e0]; simp

/-! ## The two operations read at an element of the whole array -/

/-- The operand row a gather reads for result row (edge) `e`: the start index `idx[e, 0]`, read
    signed and clamped into `[0, N − 1]`. -/
def grow {N : Nat} (hN : 0 < N) {E w : Nat} (idx : IVec (⟨2, ![E, 1]⟩ : Shape) w) (e : Fin E) : Fin N :=
  ⟨min (idx (ix2 e 0)).toInt.toNat (N - 1), by omega⟩

/-- The clamped row's value. -/
theorem grow_val {N : Nat} (hN : 0 < N) {E w : Nat} (idx : IVec (⟨2, ![E, 1]⟩ : Shape) w) (e : Fin E) :
    (grow hN idx e).val = min (idx (ix2 e 0)).toInt.toNat (N - 1) := rfl

/-- A start index that is already a row `v < N` is read as that row. -/
theorem grow_eq_of_toInt {N : Nat} (hN : 0 < N) {E w : Nat} (idx : IVec (⟨2, ![E, 1]⟩ : Shape) w) (e : Fin E)
    (v : Fin N) (h : (idx (ix2 e 0)).toInt = (v.val : ℤ)) : grow hN idx e = v := by
  refine Fin.ext ?_
  rw [grow_val, h, Int.toNat_natCast]
  have := v.isLt
  omega

/-- THE ROW GATHER AT `(e, c)`: the matrix at the clamped row of edge `e`, column `c`. -/
theorem gather_rows_apply {α : Type} {N E C w : Nat} (hN : 0 < N)
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec (⟨2, ![E, 1]⟩ : Shape) w) (e : Fin E) (c : Fin C) :
    Host.gather d x idx (ix2 e c) = x (ix2 (grow hN idx e) c) := by
  unfold Host.gather
  congr 1
  funext a
  match a with
  | ⟨0, _⟩ => exact Fin.ext (gather_rows_row d h1 h2 h3 h4 h5 h6 h7 idx (ix2 e c))
  | ⟨1, _⟩ => exact gather_rows_col d h1 h2 h3 h4 h5 h6 h7 idx (ix2 e c)

/-- THE ENTRY GATHER AT `e`: the vector at the clamped start index of edge `e`. -/
theorem gather_entries_apply {α : Type} {N E w : Nat} (hN : 0 < N)
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec (⟨2, ![E, 1]⟩ : Shape) w) (e : Fin E) :
    Host.gather d x idx (ix1 e) = x (ix1 (grow hN idx e)) := by
  unfold Host.gather
  congr 1
  funext a
  match a with
  | ⟨0, _⟩ => exact Fin.ext (gather_entries d h1 h2 h3 h4 h5 h6 h7 idx (ix1 e))

/-- THE ROW SCATTER-ADD AT `(v, c)`, exact arithmetic: the operand's element plus the sum, over the
    edges `e` whose scatter index `idx[e, 0]` (read signed) is the row `v`, of the update's element
    `(e, c)`. -/
theorem scatterAdd_rows_apply {φ : FTy} {N E C w : Nat}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (z : FVec Ideal (⟨2, ![N, C]⟩ : Shape) φ) (idx : IVec (⟨2, ![E, 1]⟩ : Shape) w)
    (upd : FVec Ideal (⟨2, ![E, C]⟩ : Shape) φ) (v : Fin N) (c : Fin C) :
    Host.scatterAdd (F := Ideal) d z idx upd (ix2 v c)
      = z (ix2 v c) + ∑ e ∈ Finset.univ.filter (fun e : Fin E => (idx (ix2 e 0)).toInt = (v.val : ℤ)), upd (ix2 e c) := by
  show z (ix2 v c) + ∑ j ∈ Finset.univ.filter (fun j => d.resultIdx? j idx = some (ix2 v c)), upd j = _
  congr 1
  have key : ∀ j : (⟨2, ![E, C]⟩ : Shape).Idx, d.resultIdx? j idx = some (ix2 v c) ↔
      (idx (ix2 (j 0) 0)).toInt = (v.val : ℤ) ∧ (j 1).val = c.val :=
    fun j => scatter_rows d h1 h2 h3 h4 idx j (ix2 v c)
  have back : ∀ j : (⟨2, ![E, C]⟩ : Shape).Idx, (j 1).val = c.val → ix2 (j 0) c = j := by
    intro j hj
    have : j 1 = c := Fin.ext hj
    rw [← this]; exact (eq_ix2 j).symm
  refine Finset.sum_nbij' (fun j => (j 0 : Fin E)) (fun e => ix2 e c) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e c)).mpr ⟨(Finset.mem_filter.mp he).2, rfl⟩⟩
  · intro j hj
    exact back j ((key j).mp (Finset.mem_filter.mp hj).2).2
  · intro e _
    rfl
  · intro j hj
    exact congrArg upd (back j ((key j).mp (Finset.mem_filter.mp hj).2).2).symm

/-- THE ENTRY SCATTER-ADD AT `v`, exact arithmetic: the operand's entry plus the sum, over the edges
    `e` whose scatter index `idx[e, 0]` (read signed) is `v`, of the update's entry `e`. -/
theorem scatterAdd_entries_apply {φ : FTy} {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (z : FVec Ideal (⟨1, ![N]⟩ : Shape) φ) (idx : IVec (⟨2, ![E, 1]⟩ : Shape) w)
    (upd : FVec Ideal (⟨1, ![E]⟩ : Shape) φ) (v : Fin N) :
    Host.scatterAdd (F := Ideal) d z idx upd (ix1 v)
      = z (ix1 v) + ∑ e ∈ Finset.univ.filter (fun e : Fin E => (idx (ix2 e 0)).toInt = (v.val : ℤ)), upd (ix1 e) := by
  show z (ix1 v) + ∑ j ∈ Finset.univ.filter (fun j => d.resultIdx? j idx = some (ix1 v)), upd j = _
  congr 1
  have key : ∀ j : (⟨1, ![E]⟩ : Shape).Idx, d.resultIdx? j idx = some (ix1 v) ↔
      (idx (ix2 (j 0) 0)).toInt = (v.val : ℤ) :=
    fun j => scatter_entries d h1 h2 h3 h4 idx j (ix1 v)
  refine Finset.sum_nbij' (fun j => (j 0 : Fin E)) (fun e => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg upd (eq_ix1 j)

/-! ## The wrap of a negative index -/

/-- A select between `x + n` and `x` on the signed comparison `x < z` is the `if` on it. -/
theorem select_slt_addi {w : Nat} (x z n : BitVec w) :
    Scalar.select (IntOp.cmpi .slt x z) (IntOp.addi x n) x = if x.toInt < z.toInt then x + n else x := by
  by_cases h : x.toInt < z.toInt
  · simp [Scalar.select, IntOp.cmpi, IntOp.addi, BitVec.slt, h]
  · simp [Scalar.select, IntOp.cmpi, IntOp.addi, BitVec.slt, h]

/-- The same for whole arrays, read at an element. -/
theorem select_slt_addi_apply {s : Shape} {w : Nat} (x z n : IVec s w) (i : s.Idx) :
    select (cmpi .slt x z) (addi x n) x i = if (x i).toInt < (z i).toInt then x i + n i else x i :=
  select_slt_addi (x i) (z i) (n i)

/-- An index that is not negative is not wrapped. -/
theorem wrap_of_nonneg {w : Nat} (x n : BitVec w) (h : 0 ≤ x.toInt) :
    Scalar.select (IntOp.cmpi .slt x 0#w) (IntOp.addi x n) x = x := by
  rw [select_slt_addi, if_neg]
  rw [BitVec.toInt_zero]; omega

/-- An index that is already a row `v < N` survives the wrap and the gather's clamp into `[0, N − 1]`:
    both leave `v`. -/
theorem clamp_wrap_row {w : Nat} (b n : BitVec w) (v N : Nat) (hb : b.toInt = (v : ℤ)) (hv : v < N) :
    min (Scalar.select (IntOp.cmpi .slt b 0#w) (IntOp.addi b n) b).toInt.toNat (N - 1) = v := by
  rw [wrap_of_nonneg b n (by rw [hb]; exact Int.natCast_nonneg _), hb, Int.toNat_natCast]
  omega

/-- The plain form: with `w = if b < 0 then b + n else b` for a `b` that reads as the row `v < N`,
    the clamp of `w` into `[0, N − 1]` is `v`. -/
theorem clamp_wrap_row' {w : Nat} (b n : BitVec w) (v N : Nat) (hb : b.toInt = (v : ℤ)) (hv : v < N) :
    min (if b.toInt < 0 then b + n else b).toInt.toNat (N - 1) = v := by
  rw [if_neg (by rw [hb]; exact not_lt.mpr (Int.natCast_nonneg _)), hb, Int.toNat_natCast]
  omega

end RowGatherScatter

end
-- ==== Proof.SageLaw.lean ====
/-
  Two layers of mean aggregation over a graph, on the extended reals.

  A layer takes a table of node features x (N rows, K columns), two weight matrices (K × C, already transposed), a bias,
  a list of E edges given by two index arrays (the source row of edge e, read signed and clamped into the table; the
  target row of edge e, read signed, an edge whose target is outside the table landing nowhere), and returns, at node v
  and column c,

      mean over the edges into v of (the source's features projected by the first matrix)  +  bias  +  v's own features
      projected by the second matrix,

  the mean being the sum divided by max(number of edges into v, 1). The projection can be applied to every source row
  before the rows are summed (`layerProjFirst`), or once to the averaged row (`layerMeanFirst`). When every entry of x
  and of the first matrix is a real number the two agree (`layer_eq`): the quotient by a nonzero real is a product with
  its reciprocal, products distribute over finite sums of reals, and two finite sums exchange. At an infinite entry
  distributivity fails on the extended reals, which is why the hypothesis is there. A layer of real data is real
  (`layerMeanFirst_real`), so the law applies again to the second layer, fed with the rectified first (`net_eq`).
-/
import proofs.«105053_j57200374448341_2_alg».proof.Proof.LibRealSums
import proofs.«105053_j57200374448341_2_alg».proof.Proof.LibRowGatherScatter
import Idealize.ShloMosaic.PureOps.Ideal
import Idealize.ShloMosaic.Lib.ValueIdx
import Idealize.ShloMosaic.Lib.IdealHost

noncomputable section

open scoped BigOperators

open Idealize.ShloMosaic Idealize.ShloMosaic.ValueIdx RealSums

namespace SageLaw

/-- The f32 word of 0.0 as an extended real. -/
abbrev zeroW : EReal := Ideal.ofBits .f32 0x00000000#32
/-- The f32 word of 1.0 as an extended real. -/
abbrev oneW : EReal := Ideal.ofBits .f32 0x3F800000#32

theorem zeroW_eq : zeroW = 0 := Ideal.ofBits_zero_f32
theorem oneW_eq : oneW = 1 := Ideal.ofBits_one_f32

theorem isReal_zeroW : IsReal zeroW := by rw [zeroW_eq]; exact isReal_zero
theorem isReal_oneW : IsReal oneW := by rw [oneW_eq]; exact isReal_one

/-- The quotient of a real by a nonzero real is real. -/
theorem isReal_div {a d : EReal} (ha : IsReal a) (hd : IsReal d) (hd0 : d ≠ 0) : IsReal (Ideal.div a d) := by
  obtain ⟨dr, rfl⟩ := hd
  have hdr : dr ≠ 0 := fun h => hd0 (by rw [h]; exact EReal.coe_zero)
  rw [Ideal.div_coe hdr]
  exact isReal_mul ha (isReal_coe _)

/-- SUM THEN PROJECT = PROJECT THEN SUM, under a quotient by a nonzero real: for real rows `x e` and a real column
    `w`, `(0 + Σₑ Σₖ xₑₖ wₖ) / d = Σₖ ((0 + Σₑ xₑₖ) / d) wₖ`. -/
theorem mean_proj {ι κ : Type*} [Fintype κ] (s : Finset ι) (x : ι → κ → EReal) (w : κ → EReal) (d : EReal)
    (hx : ∀ e k, IsReal (x e k)) (hw : ∀ k, IsReal (w k)) (hd : IsReal d) (hd0 : d ≠ 0) :
    Ideal.div (zeroW + ∑ e ∈ s, ∑ k, x e k * w k) d = ∑ k, Ideal.div (zeroW + ∑ e ∈ s, x e k) d * w k := by
  obtain ⟨dr, rfl⟩ := hd
  have hdr : dr ≠ 0 := fun h => hd0 (by rw [h]; exact EReal.coe_zero)
  simp only [Ideal.div_coe hdr, zeroW_eq, zero_add]
  generalize hD' : ((1 / dr : ℝ) : EReal) = D
  have hD : IsReal D := hD' ▸ isReal_coe _
  rw [sum_mul_of_isReal s _ D (fun e _ => isReal_sum_univ _ (fun k => isReal_mul (hx e k) (hw k))) hD]
  have hL : ∀ e ∈ s, (∑ k, x e k * w k) * D = ∑ k, x e k * D * w k := by
    intro e _
    rw [sum_mul_of_isReal Finset.univ _ D (fun k _ => isReal_mul (hx e k) (hw k)) hD]
    exact Finset.sum_congr rfl fun k _ => by rw [mul_assoc, mul_comm (w k) D, ← mul_assoc]
  rw [Finset.sum_congr rfl hL, Finset.sum_comm]
  refine Finset.sum_congr rfl fun k _ => ?_
  rw [sum_mul_of_isReal s _ D (fun e _ => hx e k) hD,
    sum_mul_of_isReal s _ (w k) (fun e _ => isReal_mul (hx e k) hD) (hw k)]

/-! ## One layer -/

/-- An N × K array of extended reals, indexed as the programs index it. -/
abbrev Mat (a b : ℕ) := (⟨2, ![a, b]⟩ : Shape).Idx → EReal
/-- A vector of extended reals. -/
abbrev Vc (a : ℕ) := (⟨1, ![a]⟩ : Shape).Idx → EReal

/-- The array whose entry (p, q) is `f p q`. -/
def arr2 {a b : ℕ} (f : Fin a → Fin b → EReal) : Mat a b := fun i => f (i 0) (i 1)

theorem arr2_ix2 {a b : ℕ} (f : Fin a → Fin b → EReal) (p : Fin a) (q : Fin b) : arr2 f (ix2 p q) = f p q := rfl

variable {N E : ℕ}

/-- The edges whose target index, read signed, is node `v`. -/
def into (idxD : IVec (⟨2, ![E, 1]⟩ : Shape) 32) (v : Fin N) : Finset (Fin E) :=
  Finset.univ.filter fun e => (idxD (ix2 e 0)).toInt = (v.val : ℤ)

/-- The number of edges into `v`, as a sum of ones from zero, floored at one. -/
def cnt (idxD : IVec (⟨2, ![E, 1]⟩ : Shape) 32) (v : Fin N) : EReal :=
  max (zeroW + ∑ _e ∈ into idxD v, oneW) oneW

theorem cnt_real (idxD : IVec (⟨2, ![E, 1]⟩ : Shape) 32) (v : Fin N) : IsReal (cnt idxD v) :=
  isReal_max (isReal_add isReal_zeroW (isReal_sum _ _ fun _ _ => isReal_oneW)) isReal_oneW

theorem cnt_ne_zero (idxD : IVec (⟨2, ![E, 1]⟩ : Shape) 32) (v : Fin N) : cnt idxD v ≠ 0 :=
  ne_of_gt (lt_of_lt_of_le (by rw [oneW_eq]; exact zero_lt_one) (le_max_right _ _))

variable (hN : 0 < N) (idxS idxD : IVec (⟨2, ![E, 1]⟩ : Shape) 32)

/-- The layer with the projection applied to each source row before the rows are summed. -/
def layerProjFirst {K C : ℕ} (x : Mat N K) (wl wr : Mat K C) (b : Vc C) (v : Fin N) (c : Fin C) : EReal :=
  (Ideal.div (zeroW + ∑ e ∈ into idxD v, ∑ k : Fin K, x (ix2 (RowGatherScatter.grow hN idxS e) k) * wl (ix2 k c))
      (cnt idxD v) + b (ix1 c))
    + ∑ k : Fin K, x (ix2 v k) * wr (ix2 k c)

/-- The layer with the source rows summed and averaged first, the projection applied to the averaged row. -/
def layerMeanFirst {K C : ℕ} (x : Mat N K) (wl wr : Mat K C) (b : Vc C) (v : Fin N) (c : Fin C) : EReal :=
  (∑ k : Fin K, Ideal.div (zeroW + ∑ e ∈ into idxD v, x (ix2 (RowGatherScatter.grow hN idxS e) k)) (cnt idxD v)
      * wl (ix2 k c) + b (ix1 c))
    + ∑ k : Fin K, x (ix2 v k) * wr (ix2 k c)

/-- THE TWO ORDERS AGREE on real features and a real first matrix. -/
theorem layer_eq {K C : ℕ} (x : Mat N K) (wl wr : Mat K C) (b : Vc C) (hx : ∀ i, IsReal (x i))
    (hwl : ∀ i, IsReal (wl i)) (v : Fin N) (c : Fin C) :
    layerProjFirst hN idxS idxD x wl wr b v c = layerMeanFirst hN idxS idxD x wl wr b v c := by
  unfold layerProjFirst layerMeanFirst
  rw [mean_proj (into idxD v) (fun e k => x (ix2 (RowGatherScatter.grow hN idxS e) k)) (fun k => wl (ix2 k c))
    (cnt idxD v) (fun _ _ => hx _) (fun _ => hwl _) (cnt_real idxD v) (cnt_ne_zero idxD v)]

/-- A layer of real data is real. -/
theorem layerMeanFirst_real {K C : ℕ} (x : Mat N K) (wl wr : Mat K C) (b : Vc C) (hx : ∀ i, IsReal (x i))
    (hwl : ∀ i, IsReal (wl i)) (hwr : ∀ i, IsReal (wr i)) (hb : ∀ i, IsReal (b i)) (v : Fin N) (c : Fin C) :
    IsReal (layerMeanFirst hN idxS idxD x wl wr b v c) := by
  unfold layerMeanFirst
  refine isReal_add (isReal_add (isReal_sum_univ _ fun k => isReal_mul (isReal_div ?_ (cnt_real idxD v)
    (cnt_ne_zero idxD v)) (hwl _)) (hb _)) (isReal_sum_univ _ fun k => isReal_mul (hx _) (hwr _))
  exact isReal_add isReal_zeroW (isReal_sum _ _ fun _ _ => hx _)

/-! ## Two layers, the first rectified -/

/-- The larger of a value and the word 0.0. -/
def relu (a : EReal) : EReal := max a zeroW

theorem relu_real {a : EReal} (ha : IsReal a) : IsReal (relu a) := isReal_max ha isReal_zeroW

/-- The network with both layers projecting first. -/
def netProjFirst {K H C : ℕ} (x : Mat N K) (w1l w1r : Mat K H) (b1 : Vc H) (w2l w2r : Mat H C) (b2 : Vc C)
    (v : Fin N) (c : Fin C) : EReal :=
  layerProjFirst hN idxS idxD (arr2 fun p q => relu (layerProjFirst hN idxS idxD x w1l w1r b1 p q)) w2l w2r b2 v c

/-- The network with both layers averaging first. -/
def netMeanFirst {K H C : ℕ} (x : Mat N K) (w1l w1r : Mat K H) (b1 : Vc H) (w2l w2r : Mat H C) (b2 : Vc C)
    (v : Fin N) (c : Fin C) : EReal :=
  layerMeanFirst hN idxS idxD (arr2 fun p q => relu (layerMeanFirst hN idxS idxD x w1l w1r b1 p q)) w2l w2r b2 v c

/-- THE TWO NETWORKS AGREE on real inputs: the law at the first layer, the first layer's output real, the law again. -/
theorem net_eq {K H C : ℕ} (x : Mat N K) (w1l w1r : Mat K H) (b1 : Vc H) (w2l w2r : Mat H C) (b2 : Vc C)
    (hx : ∀ i, IsReal (x i)) (h1l : ∀ i, IsReal (w1l i)) (h1r : ∀ i, IsReal (w1r i)) (hb1 : ∀ i, IsReal (b1 i))
    (h2l : ∀ i, IsReal (w2l i)) (v : Fin N) (c : Fin C) :
    netProjFirst hN idxS idxD x w1l w1r b1 w2l w2r b2 v c = netMeanFirst hN idxS idxD x w1l w1r b1 w2l w2r b2 v c := by
  unfold netProjFirst netMeanFirst
  have e : (arr2 fun p q => relu (layerProjFirst hN idxS idxD x w1l w1r b1 p q))
      = arr2 fun p q => relu (layerMeanFirst hN idxS idxD x w1l w1r b1 p q) :=
    funext fun i => congrArg relu (layer_eq hN idxS idxD x w1l w1r b1 hx h1l (i 0) (i 1))
  rw [e]
  exact layer_eq hN idxS idxD _ w2l w2r b2
    (fun i => relu_real (layerMeanFirst_real hN idxS idxD x w1l w1r b1 hx h1l h1r hb1 (i 0) (i 1))) h2l v c

end SageLaw

end
-- ==== Proof.Stages.lean ====
/-
  The stages the kernel's four pipelines compute, as whole-array functions on the extended reals.

  `proj X W` is the matrix product of a table X (N × K) with a matrix W (K × C): entry (p, q) is Σₖ X(p, k) · W(k, q).
  `combine A D Z b` is, at (p, q), the quotient of A(p, q) by the column entry D(p, 0), plus the bias b(q), plus Z(p, q);
  `combineRelu` is the larger of that and the word 0.0.
-/
import proofs.«105053_j57200374448341_2_alg».proof.Proof.SageLaw

noncomputable section

open scoped BigOperators

open Idealize.ShloMosaic Idealize.ShloMosaic.ValueIdx

namespace SageLaw

/-- The matrix product of an N × K table with a K × C matrix. -/
def proj {N K C : ℕ} (X : Mat N K) (W : Mat K C) : Mat N C := arr2 fun p q => ∑ k : Fin K, X (ix2 p k) * W (ix2 k q)

theorem proj_ix2 {N K C : ℕ} (X : Mat N K) (W : Mat K C) (p : Fin N) (q : Fin C) :
    proj X W (ix2 p q) = ∑ k : Fin K, X (ix2 p k) * W (ix2 k q) := rfl

/-- Quotient by the row's column entry, plus bias, plus the second table. -/
def combine {N C : ℕ} (A : Mat N C) (D : Mat N 1) (Z : Mat N C) (b : Vc C) : Mat N C :=
  arr2 fun p q => (Ideal.div (A (ix2 p q)) (D (ix2 p 0)) + b (ix1 q)) + Z (ix2 p q)

theorem combine_ix2 {N C : ℕ} (A : Mat N C) (D : Mat N 1) (Z : Mat N C) (b : Vc C) (p : Fin N) (q : Fin C) :
    combine A D Z b (ix2 p q) = (Ideal.div (A (ix2 p q)) (D (ix2 p 0)) + b (ix1 q)) + Z (ix2 p q) := rfl

/-- The same, rectified. -/
def combineRelu {N C : ℕ} (A : Mat N C) (D : Mat N 1) (Z : Mat N C) (b : Vc C) : Mat N C :=
  arr2 fun p q => relu ((Ideal.div (A (ix2 p q)) (D (ix2 p 0)) + b (ix1 q)) + Z (ix2 p q))

theorem combineRelu_ix2 {N C : ℕ} (A : Mat N C) (D : Mat N 1) (Z : Mat N C) (b : Vc C) (p : Fin N) (q : Fin C) :
    combineRelu A D Z b (ix2 p q) = relu ((Ideal.div (A (ix2 p q)) (D (ix2 p 0)) + b (ix1 q)) + Z (ix2 p q)) := rfl

end SageLaw

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.KProject0.lean ====
/-
  Pipeline 0 of the kernel (the projection of a node table through two matrices at once), read as whole arrays.

  The grid has 25 points; point t stages rows 2000·t … 2000·t + 1999 of the table and both 768 × 256 matrices whole, and
  its body stores, into each of the two output blocks, the matrix product of the row block with one of the matrices
  (a change of float format is the identity on the extended reals, and a product into the zero accumulator is the
  plain sum over the contracted axis). So each output block is the block of ONE whole-array function, `proj` of the
  table and the matrix, and since the 25 row blocks tile the 50000 rows the output arrays end holding that function.
-/
import proofs.«105053_j57200374448341_2_alg».proof.Proof.Gen.KernelIdeal.Frame
import proofs.«105053_j57200374448341_2_alg».proof.Proof.Stages
import proofs.«105053_j57200374448341_2_alg».proof.Proof.LibMatmulRowsByCols
import Idealize.ShloMosaic.Lib.Pipeline.Value
import Idealize.ShloMosaic.Lib.ValueIdx

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Val0

open Cert.KernelIdeal Cert.KernelIdeal.Gen SageLaw

theorem hz : (![0, 0] : Fin 2 → Nat) = fun _ => 0 := funext fun a => by fin_cases a <;> rfl

/-! ## The matrix product's dimension record read at an entry -/

theorem lhs_0 (i : S2000x256.Idx) (q : dot_S2000x768_S768x256_S2000x256_1_0_0_1_n_n.contr.Idx) : (dot_S2000x768_S768x256_S2000x256_1_0_0_1_n_n.lhsIdx i q 0).val = (i 0).val := by
  unfold DotDims.lhsIdx
  rw [dif_neg (show ¬(0 : Fin S2000x768.rank) ∈ dot_S2000x768_S768x256_S2000x256_1_0_0_1_n_n.lhsBatch by decide), dif_pos (show (0 : Fin S2000x768.rank) ∈ dot_S2000x768_S768x256_S2000x256_1_0_0_1_n_n.lhsNonContracting by decide)]
  rfl
theorem lhs_1 (i : S2000x256.Idx) (q : dot_S2000x768_S768x256_S2000x256_1_0_0_1_n_n.contr.Idx) : (dot_S2000x768_S768x256_S2000x256_1_0_0_1_n_n.lhsIdx i q 1).val = (q ⟨0, by decide⟩).val :=
  dot_S2000x768_S768x256_S2000x256_1_0_0_1_n_n.lhsIdx_val_of_single rfl i q
theorem rhs_0 (i : S2000x256.Idx) (q : dot_S2000x768_S768x256_S2000x256_1_0_0_1_n_n.contr.Idx) : (dot_S2000x768_S768x256_S2000x256_1_0_0_1_n_n.rhsIdx i q 0).val = (q ⟨0, by decide⟩).val :=
  dot_S2000x768_S768x256_S2000x256_1_0_0_1_n_n.rhsIdx_val_of_single rfl i q
theorem rhs_1 (i : S2000x256.Idx) (q : dot_S2000x768_S768x256_S2000x256_1_0_0_1_n_n.contr.Idx) : (dot_S2000x768_S768x256_S2000x256_1_0_0_1_n_n.rhsIdx i q 1).val = (i 1).val := by
  unfold DotDims.rhsIdx
  rw [dif_neg (show ¬(1 : Fin S768x256.rank) ∈ dot_S2000x768_S768x256_S2000x256_1_0_0_1_n_n.rhsBatch by decide), dif_pos (show (1 : Fin S768x256.rank) ∈ dot_S2000x768_S768x256_S2000x256_1_0_0_1_n_n.rhsNonContracting by decide)]
  rfl

/-! ## The two payloads at an entry: the row block times the matrix -/

theorem payY_apply (x0 : FVec Ideal S2000x768 .f32) (x1 : FVec Ideal S768x256 .f32) (p : Fin 2000) (q : Fin 256) :
    k0_pay3 (F := Ideal) x0 x1 (ix2 p q) = ∑ k : Fin 768, x0 (ix2 p k) * x1 (ix2 k q) := by
  unfold k0_pay3 k0_pay1
  show matmul dot_S2000x768_S768x256_S2000x256_1_0_0_1_n_n none (truncf .bf16 x0 bitsLt_bf16_f32) (truncf .bf16 (shapeCast S768x256 x1 shapeCasts_S768x256_S768x256) bitsLt_bf16_f32) (constant (F := Ideal) S2000x256 .f32 0x00000000#32) (ix2 p q) = _
  refine (Idealize.ShloMosaic.MatmulRowsByCols.matmul_zero_apply dot_S2000x768_S768x256_S2000x256_1_0_0_1_n_n rfl rfl lhs_0 lhs_1 rhs_0 rhs_1 none _ _ p q).trans ?_
  rw [shapeCast_self]
  rfl

theorem payZ_apply (x0 : FVec Ideal S2000x768 .f32) (x1 : FVec Ideal S768x256 .f32) (p : Fin 2000) (q : Fin 256) :
    k0_pay2 (F := Ideal) x0 x1 (ix2 p q) = ∑ k : Fin 768, x0 (ix2 p k) * x1 (ix2 k q) := by
  unfold k0_pay2 k0_pay1
  show matmul dot_S2000x768_S768x256_S2000x256_1_0_0_1_n_n none (truncf .bf16 x0 bitsLt_bf16_f32) (truncf .bf16 (shapeCast S768x256 x1 shapeCasts_S768x256_S768x256) bitsLt_bf16_f32) (constant (F := Ideal) S2000x256 .f32 0x00000000#32) (ix2 p q) = _
  refine (Idealize.ShloMosaic.MatmulRowsByCols.matmul_zero_apply dot_S2000x768_S768x256_S2000x256_1_0_0_1_n_n rfl rfl lhs_0 lhs_1 rhs_0 rhs_1 none _ _ p q).trans ?_
  rw [shapeCast_self]
  rfl

/-! ## The windows' block indices over the grid -/

/-- The row windows (0, 3, 4) are at block (t, 0) at point t; the matrix windows (1, 2) at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The table's block at point t, at (p, k), is the table at (2000·t + p, k). -/
theorem blkX_apply (c : Dev nD) (t : Fin cfg0.N) (p : Fin 2000) (k : Fin 768) (i : S50000x768.Idx)
    (hi0 : (i 0).val = t.val * 2000 + p.val) (hi1 : (i 1).val = k.val) :
    (iblk0 V c 0 t : FVec Ideal S2000x768 .f32) (ix2 p k) = (V c main_arg0 : S50000x768.Idx → EReal) i := by
  obtain ⟨e0, e1, -⟩ := idx_facts t
  unfold iblk0
  rw [View.read_apply]
  show (V c main_arg0 : S50000x768.Idx → EReal) _ = _
  refine congrArg _ (funext fun a => Fin.ext ?_)
  match a with
  | ⟨0, _⟩ => show win0_0.index t (0 : Fin 2) * 2000 + 1 * p.val = (i 0).val; rw [e0, hi0]; omega
  | ⟨1, _⟩ => show win0_0.index t (1 : Fin 2) * 768 + 1 * k.val = (i 1).val; rw [e1, hi1]; omega

/-- The first matrix's block at any point is the matrix. -/
theorem blkWl_apply (c : Dev nD) (t : Fin cfg0.N) (k : Fin 768) (q : Fin 256) :
    (iblk0 V c 1 t : FVec Ideal S768x256 .f32) (ix2 k q) = (V c main_v11 : S768x256.Idx → EReal) (ix2 k q) := by
  obtain ⟨-, -, e0, e1, -⟩ := idx_facts t
  unfold iblk0
  rw [View.read_apply]
  show (V c main_v11 : S768x256.Idx → EReal) _ = _
  refine congrArg _ (funext fun a => Fin.ext ?_)
  match a with
  | ⟨0, _⟩ => show win0_1.index t (0 : Fin 2) * 768 + 1 * k.val = k.val; rw [e0]; omega
  | ⟨1, _⟩ => show win0_1.index t (1 : Fin 2) * 256 + 1 * q.val = q.val; rw [e1]; omega

/-- The second matrix's block at any point is the matrix. -/
theorem blkWr_apply (c : Dev nD) (t : Fin cfg0.N) (k : Fin 768) (q : Fin 256) :
    (iblk0 V c 2 t : FVec Ideal S768x256 .f32) (ix2 k q) = (V c main_v12 : S768x256.Idx → EReal) (ix2 k q) := by
  obtain ⟨-, -, -, -, e0, e1, -⟩ := idx_facts t
  unfold iblk0
  rw [View.read_apply]
  show (V c main_v12 : S768x256.Idx → EReal) _ = _
  refine congrArg _ (funext fun a => Fin.ext ?_)
  match a with
  | ⟨0, _⟩ => show win0_2.index t (0 : Fin 2) * 768 + 1 * k.val = k.val; rw [e0]; omega
  | ⟨1, _⟩ => show win0_2.index t (1 : Fin 2) * 256 + 1 * q.val = q.val; rw [e1]; omega

/-! ## What point t writes back -/

/-- Output window 3: block t of the table's product with the first matrix. -/
theorem flushedY_eq (c : Dev nD) (t : Fin cfg0.N) :
    (dat0 V c).flushed 3 t = ((cfg0.win 3).blk t).view.read (Elt Ideal)
      (proj (V c main_arg0 : S50000x768.Idx → EReal) (V c main_v11 : S768x256.Idx → EReal) : S50000x256.Idx → EReal) := by
  show (cfg0.win 3).cut (grid0.coords t) ((dat0 V c).after 3 t) = _
  rw [after0_3]
  unfold out0_3
  rw [View.canon_unit_zero hz]
  simp only [View.ld_unit_zero (S := S2000x768) hz, View.ld_unit_zero (S := S768x256) hz]
  obtain ⟨-, -, -, -, -, -, e0, e1, -⟩ := idx_facts t
  funext j
  obtain ⟨p, q, rfl⟩ : ∃ (p : Fin 2000) (q : Fin 256), j = ix2 p q := ⟨j 0, j 1, eq_ix2 j⟩
  have hp : p.val < 2000 := p.isLt
  have ht : t.val < 25 := lt_of_lt_of_eq t.isLt (show cfg0.N = 25 from N_0)
  let r : Fin 50000 := ⟨t.val * 2000 + p.val, by omega⟩
  have hemb : ((cfg0.win 3).blk t).view.emb (ix2 p q) = (ix2 r q : S50000x256.Idx) := by
    funext a; apply Fin.ext
    match a with
    | ⟨0, _⟩ => show win0_3.index t (0 : Fin 2) * 2000 + 1 * p.val = t.val * 2000 + p.val; rw [e0]; omega
    | ⟨1, _⟩ => show win0_3.index t (1 : Fin 2) * 256 + 1 * q.val = q.val; rw [e1]; omega
  rw [View.read_apply, hemb, proj_ix2]
  refine (payY_apply (iblk0 V c 0 t) (iblk0 V c 1 t) p q).trans ?_
  refine Finset.sum_congr rfl fun k _ => ?_
  rw [blkX_apply V c t p k (ix2 r k) rfl rfl, blkWl_apply V c t k q]

/-- Output window 4: block t of the table's product with the second matrix. -/
theorem flushedZ_eq (c : Dev nD) (t : Fin cfg0.N) :
    (dat0 V c).flushed 4 t = ((cfg0.win 4).blk t).view.read (Elt Ideal)
      (proj (V c main_arg0 : S50000x768.Idx → EReal) (V c main_v12 : S768x256.Idx → EReal) : S50000x256.Idx → EReal) := by
  show (cfg0.win 4).cut (grid0.coords t) ((dat0 V c).after 4 t) = _
  rw [after0_4]
  unfold out0_4
  rw [View.canon_unit_zero hz]
  simp only [View.ld_unit_zero (S := S2000x768) hz, View.ld_unit_zero (S := S768x256) hz]
  obtain ⟨-, -, -, -, -, -, -, -, e0, e1⟩ := idx_facts t
  funext j
  obtain ⟨p, q, rfl⟩ : ∃ (p : Fin 2000) (q : Fin 256), j = ix2 p q := ⟨j 0, j 1, eq_ix2 j⟩
  have hp : p.val < 2000 := p.isLt
  have ht : t.val < 25 := lt_of_lt_of_eq t.isLt (show cfg0.N = 25 from N_0)
  let r : Fin 50000 := ⟨t.val * 2000 + p.val, by omega⟩
  have hemb : ((cfg0.win 4).blk t).view.emb (ix2 p q) = (ix2 r q : S50000x256.Idx) := by
    funext a; apply Fin.ext
    match a with
    | ⟨0, _⟩ => show win0_4.index t (0 : Fin 2) * 2000 + 1 * p.val = t.val * 2000 + p.val; rw [e0]; omega
    | ⟨1, _⟩ => show win0_4.index t (1 : Fin 2) * 256 + 1 * q.val = q.val; rw [e1]; omega
  rw [View.read_apply, hemb, proj_ix2]
  refine (payZ_apply (iblk0 V c 0 t) (iblk0 V c 2 t) p q).trans ?_
  refine Finset.sum_congr rfl fun k _ => ?_
  rw [blkX_apply V c t p k (ix2 r k) rfl rfl, blkWr_apply V c t k q]

/-! ## The row blocks tile the rows -/

theorem coverY (i : S50000x256.Idx) : ∃ t : Fin cfg0.N, (cfg0.win 3).flush t = true ∧ i ∈ ((cfg0.win 3).blk t).view.set := by
  have h0 : (i 0).val < 50000 := (i 0).isLt
  have h1 : (i 1).val < 256 := (i 1).isLt
  let t : Fin cfg0.N := ⟨(i 0).val / 2000, by rw [show cfg0.N = 25 from N_0]; omega⟩
  obtain ⟨-, -, -, -, -, -, e0, e1, -⟩ := idx_facts t
  refine ⟨t, flush0_3 t, ?_⟩
  show i ∈ ((View.whole main_v13_0).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000; rw [e0]; show (i 0).val / 2000 * 2000 ≤ (i 0).val ∧ (i 0).val < (i 0).val / 2000 * 2000 + 2000; omega
  | ⟨1, _⟩ => show win0_3.index t (1 : Fin 2) * 256 ≤ (i 1).val ∧ (i 1).val < win0_3.index t (1 : Fin 2) * 256 + 256; rw [e1]; omega

theorem coverZ (i : S50000x256.Idx) : ∃ t : Fin cfg0.N, (cfg0.win 4).flush t = true ∧ i ∈ ((cfg0.win 4).blk t).view.set := by
  have h0 : (i 0).val < 50000 := (i 0).isLt
  have h1 : (i 1).val < 256 := (i 1).isLt
  let t : Fin cfg0.N := ⟨(i 0).val / 2000, by rw [show cfg0.N = 25 from N_0]; omega⟩
  obtain ⟨-, -, -, -, -, -, -, -, e0, e1⟩ := idx_facts t
  refine ⟨t, flush0_4 t, ?_⟩
  show i ∈ ((View.whole main_v13_1).slice (win0_4.rect t)).set
  rw [View.set_slice_whole, Rect.mem_set_unit]
  intro a
  match a with
  | ⟨0, _⟩ => show win0_4.index t (0 : Fin 2) * 2000 ≤ (i 0).val ∧ (i 0).val < win0_4.index t (0 : Fin 2) * 2000 + 2000; rw [e0]; show (i 0).val / 2000 * 2000 ≤ (i 0).val ∧ (i 0).val < (i 0).val / 2000 * 2000 + 2000; omega
  | ⟨1, _⟩ => show win0_4.index t (1 : Fin 2) * 256 ≤ (i 1).val ∧ (i 1).val < win0_4.index t (1 : Fin 2) * 256 + 256; rw [e1]; omega

/-! ## The output arrays after the pipeline -/

/-- The first output array ends at the table's product with the first matrix. -/
theorem finalY (c : Dev nD) : (dat0 V c).arrAt 3 cfg0.N
    = (proj (V c main_arg0 : S50000x768.Idx → EReal) (V c main_v11 : S768x256.Idx → EReal) : S50000x256.Idx → EReal) :=
  (dat0 V c).arrAt_eq_of_cover 3 _ (fun t _ => flushedY_eq V c t) coverY

/-- The second output array ends at the table's product with the second matrix. -/
theorem finalZ (c : Dev nD) : (dat0 V c).arrAt 4 cfg0.N
    = (proj (V c main_arg0 : S50000x768.Idx → EReal) (V c main_v12 : S768x256.Idx → EReal) : S50000x256.Idx → EReal) :=
  (dat0 V c).arrAt_eq_of_cover 4 _ (fun t _ => flushedZ_eq V c t) coverZ

end Cert.KernelIdeal.Val0

end
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.KCombine1.lean ====
/-
  Pipeline 1 of the kernel (the mean, the bias and the root term put together, then rectified), read as a whole array.

  The grid has 25 points; point t stages rows 2000·t … 2000·t + 1999 of the summed messages, of the degree column and of
  the root term, and the bias whole; its body stores, at (p, q) of the output block, the summed message divided by
  the row's degree, plus the bias at q, plus the root term, or the word 0.0 if that is larger. Every operation is pointwise once the degree column is
  broadcast along the row and the bias down the rows, so the output block is the block of ONE whole-array function,
  `combineRelu`, and since the 25 row blocks tile the 50000 rows the output array ends holding that function.
-/
import proofs.«105053_j57200374448341_2_alg».proof.Proof.Gen.KernelIdeal.Frame
import proofs.«105053_j57200374448341_2_alg».proof.Proof.Stages
import proofs.«105053_j57200374448341_2_alg».proof.Proof.LibColumnLayout
import proofs.«105053_j57200374448341_2_alg».proof.Proof.LibOneRowMatrix
import Idealize.ShloMosaic.Lib.Pipeline.Value
import Idealize.ShloMosaic.Lib.ValueIdx

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Val1

open Cert.KernelIdeal Cert.KernelIdeal.Gen SageLaw

theorem hz : (![0, 0] : Fin 2 → Nat) = fun _ => 0 := funext fun a => by fin_cases a <;> rfl
theorem hz1 : (![0] : Fin 1 → Nat) = fun _ => 0 := funext fun a => by fin_cases a; rfl

/-! ## The payload at an entry -/

theorem pay_apply (x0 : FVec Ideal S2000x256 .f32) (x1 : FVec Ideal S2000x1 .f32) (x3 : FVec Ideal S256 .f32) (x2 : FVec Ideal S2000x256 .f32)
    (p : Fin 2000) (q : Fin 256) :
    k1_pay1 (F := Ideal) x0 x1 x3 x2 (ix2 p q)
      = relu ((Ideal.div (x0 (ix2 p q)) (x1 (ix2 p 0)) + x3 (ix1 q)) + x2 (ix2 p q)) := by
  unfold k1_pay1
  show relu ((Ideal.div (shapeCast S2000x256 x0 shapeCasts_S2000x256_S2000x256 (ix2 p q)) (broadcastTo S2000x256 (shapeCast S2000x1 x1 shapeCasts_S2000x1_S2000x1) broadcasts_S2000x1_S2000x256 (ix2 p q)) + broadcastTo S2000x256 (shapeCast S1x256 x3 shapeCasts_S256_S1x256) broadcasts_S1x256_S2000x256 (ix2 p q)) + shapeCast S2000x256 x2 shapeCasts_S2000x256_S2000x256 (ix2 p q)) = _
  rw [shapeCast_self, shapeCast_self, shapeCast_self, broadcastTo_a1_ab_apply,
    Idealize.ShloMosaic.OneRowMatrix.broadcast_row_apply, Idealize.ShloMosaic.OneRowMatrix.row_of_vector]

/-! ## The windows' block indices over the grid -/

/-- The row windows (0, 1, 2, 4) are at block (t, 0) at point t; the bias window at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The summed messages' block at point t, at (p, q), is the array at (2000·t + p, q). -/
theorem blkA_apply (c : Dev nD) (t : Fin cfg1.N) (p : Fin 2000) (q : Fin 256) (i : S50000x256.Idx)
    (hi0 : (i 0).val = t.val * 2000 + p.val) (hi1 : (i 1).val = q.val) :
    (iblk1 V c 0 t : FVec Ideal S2000x256 .f32) (ix2 p q) = (V c main_v24 : S50000x256.Idx → EReal) i := by
  obtain ⟨e0, e1, -⟩ := idx_facts t
  unfold iblk1
  rw [View.read_apply]
  show (V c main_v24 : S50000x256.Idx → EReal) _ = _
  refine congrArg _ (funext fun a => Fin.ext ?_)
  match a with
  | ⟨0, _⟩ => show win1_0.index t (0 : Fin 2) * 2000 + 1 * p.val = (i 0).val; rw [e0, hi0]; omega
  | ⟨1, _⟩ => show win1_0.index t (1 : Fin 2) * 256 + 1 * q.val = (i 1).val; rw [e1, hi1]; omega

/-- The degree column's block at point t, at (p, 0), is the column at (2000·t + p, 0). -/
theorem blkD_apply (c : Dev nD) (t : Fin cfg1.N) (p : Fin 2000) (i : S50000x1.Idx)
    (hi0 : (i 0).val = t.val * 2000 + p.val) :
    (iblk1 V c 1 t : FVec Ideal S2000x1 .f32) (ix2 p 0) = (V c main_v10 : S50000x1.Idx → EReal) i := by
  obtain ⟨-, -, e0, e1, -⟩ := idx_facts t
  unfold iblk1
  rw [View.read_apply]
  show (V c main_v10 : S50000x1.Idx → EReal) _ = _
  refine congrArg _ (funext fun a => Fin.ext ?_)
  have hi1 : (i 1).val < 1 := (i 1).isLt
  match a with
  | ⟨0, _⟩ => show win1_1.index t (0 : Fin 2) * 2000 + 1 * p.val = (i 0).val; rw [e0, hi0]; omega
  | ⟨1, _⟩ => show win1_1.index t (1 : Fin 2) * 1 + 1 * 0 = (i 1).val; rw [e1]; omega

/-- The root term's block at point t, at (p, q), is the array at (2000·t + p, q). -/
theorem blkZ_apply (c : Dev nD) (t : Fin cfg1.N) (p : Fin 2000) (q : Fin 256) (i : S50000x256.Idx)
    (hi0 : (i 0).val = t.val * 2000 + p.val) (hi1 : (i 1).val = q.val) :
    (iblk1 V c 2 t : FVec Ideal S2000x256 .f32) (ix2 p q) = (V c main_v13_1 : S50000x256.Idx → EReal) i := by
  obtain ⟨-, -, -, -, e0, e1, -⟩ := idx_facts t
  unfold iblk1
  rw [View.read_apply]
  show (V c main_v13_1 : S50000x256.Idx → EReal) _ = _
  refine congrArg _ (funext fun a => Fin.ext ?_)
  match a with
  | ⟨0, _⟩ => show win1_2.index t (0 : Fin 2) * 2000 + 1 * p.val = (i 0).val; rw [e0, hi0]; omega
  | ⟨1, _⟩ => show win1_2.index t (1 : Fin 2) * 256 + 1 * q.val = (i 1).val; rw [e1, hi1]; omega

/-- The bias's block at any point is the bias. -/
theorem blkB_apply (c : Dev nD) (t : Fin cfg1.N) (q : Fin 256) :
    (iblk1 V c 3 t : FVec Ideal S256 .f32) (ix1 q) = (V c main_arg3 : S256.Idx → EReal) (ix1 q) := by
  obtain ⟨-, -, -, -, -, -, e0, -⟩ := idx_facts t
  unfold iblk1
  rw [View.read_apply]
  show (V c main_arg3 : S256.Idx → EReal) _ = _
  refine congrArg _ (funext fun a => Fin.ext ?_)
  match a with
  | ⟨0, _⟩ => show win1_3.index t (0 : Fin 1) * 256 + 1 * q.val = q.val; rw [e0]; omega

/-! ## What point t writes back -/

theorem flushed_eq (c : Dev nD) (t : Fin cfg1.N) :
    (dat1 V c).flushed 4 t = ((cfg1.win 4).blk t).view.read (Elt Ideal)
      (combineRelu (V c main_v24 : S50000x256.Idx → EReal) (V c main_v10 : S50000x1.Idx → EReal) (V c main_v13_1 : S50000x256.Idx → EReal) (V c main_arg3 : S256.Idx → EReal) : S50000x256.Idx → EReal) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S256) hz1]
  obtain ⟨-, -, -, -, -, -, -, e0, e1⟩ := idx_facts t
  funext j
  obtain ⟨p, q, rfl⟩ : ∃ (p : Fin 2000) (q : Fin 256), j = ix2 p q := ⟨j 0, j 1, eq_ix2 j⟩
  have hp : p.val < 2000 := p.isLt
  have ht : t.val < 25 := lt_of_lt_of_eq t.isLt (show cfg1.N = 25 from N_1)
  let r : Fin 50000 := ⟨t.val * 2000 + p.val, by omega⟩
  have hemb : ((cfg1.win 4).blk t).view.emb (ix2 p q) = (ix2 r q : S50000x256.Idx) := by
    funext a; apply Fin.ext
    match a with
    | ⟨0, _⟩ => show win1_4.index t (0 : Fin 2) * 2000 + 1 * p.val = t.val * 2000 + p.val; rw [e0]; omega
    | ⟨1, _⟩ => show win1_4.index t (1 : Fin 2) * 256 + 1 * q.val = q.val; rw [e1]; omega
  rw [View.read_apply, hemb, combineRelu_ix2]
  refine (pay_apply (iblk1 V c 0 t) (iblk1 V c 1 t) (iblk1 V c 3 t) (iblk1 V c 2 t) p q).trans ?_
  rw [blkA_apply V c t p q (ix2 r q) rfl rfl, blkD_apply V c t p (ix2 r 0) rfl, blkB_apply V c t q,
    blkZ_apply V c t p q (ix2 r q) rfl rfl]
  rfl

/-! ## The row blocks tile the rows -/

theorem cover (i : S50000x256.Idx) : ∃ t : Fin cfg1.N, (cfg1.win 4).flush t = true ∧ i ∈ ((cfg1.win 4).blk t).view.set := by
  have h0 : (i 0).val < 50000 := (i 0).isLt
  have h1 : (i 1).val < 256 := (i 1).isLt
  let t : Fin cfg1.N := ⟨(i 0).val / 2000, by rw [show cfg1.N = 25 from N_1]; omega⟩
  obtain ⟨-, -, -, -, -, -, -, e0, e1⟩ := idx_facts t
  refine ⟨t, flush1_4 t, ?_⟩
  show i ∈ ((View.whole main_v25).slice (win1_4.rect t)).set
  rw [View.set_slice_whole, Rect.mem_set_unit]
  intro a
  match a with
  | ⟨0, _⟩ => show win1_4.index t (0 : Fin 2) * 2000 ≤ (i 0).val ∧ (i 0).val < win1_4.index t (0 : Fin 2) * 2000 + 2000; rw [e0]; show (i 0).val / 2000 * 2000 ≤ (i 0).val ∧ (i 0).val < (i 0).val / 2000 * 2000 + 2000; omega
  | ⟨1, _⟩ => show win1_4.index t (1 : Fin 2) * 256 ≤ (i 1).val ∧ (i 1).val < win1_4.index t (1 : Fin 2) * 256 + 256; rw [e1]; omega

/-! ## The output array after the pipeline -/

theorem final (c : Dev nD) : (dat1 V c).arrAt 4 cfg1.N
    = (combineRelu (V c main_v24 : S50000x256.Idx → EReal) (V c main_v10 : S50000x1.Idx → EReal) (V c main_v13_1 : S50000x256.Idx → EReal) (V c main_arg3 : S256.Idx → EReal) : S50000x256.Idx → EReal) :=
  (dat1 V c).arrAt_eq_of_cover 4 _ (fun t _ => flushed_eq V c t) cover

end Cert.KernelIdeal.Val1

end
-- ==== Proof.KProject2.lean ====
/-
  Pipeline 2 of the kernel (the projection of a node table through two matrices at once), read as whole arrays.

  The grid has 10 points; point t stages rows 5000·t … 5000·t + 4999 of the table and both 256 × 2 matrices whole, and
  its body stores, into each of the two output blocks, the matrix product of the row block with one of the matrices
  (a change of float format is the identity on the extended reals, and a product into the zero accumulator is the
  plain sum over the contracted axis). So each output block is the block of ONE whole-array function, `proj` of the
  table and the matrix, and since the 10 row blocks tile the 50000 rows the output arrays end holding that function.
-/
import proofs.«105053_j57200374448341_2_alg».proof.Proof.Gen.KernelIdeal.Frame
import proofs.«105053_j57200374448341_2_alg».proof.Proof.Stages
import proofs.«105053_j57200374448341_2_alg».proof.Proof.LibMatmulRowsByCols
import Idealize.ShloMosaic.Lib.Pipeline.Value
import Idealize.ShloMosaic.Lib.ValueIdx

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Val2

open Cert.KernelIdeal Cert.KernelIdeal.Gen SageLaw

theorem hz : (![0, 0] : Fin 2 → Nat) = fun _ => 0 := funext fun a => by fin_cases a <;> rfl

/-! ## The matrix product's dimension record read at an entry -/

theorem lhs_0 (i : S5000x2.Idx) (q : dot_S5000x256_S256x2_S5000x2_1_0_0_1_n_n.contr.Idx) : (dot_S5000x256_S256x2_S5000x2_1_0_0_1_n_n.lhsIdx i q 0).val = (i 0).val := by
  unfold DotDims.lhsIdx
  rw [dif_neg (show ¬(0 : Fin S5000x256.rank) ∈ dot_S5000x256_S256x2_S5000x2_1_0_0_1_n_n.lhsBatch by decide), dif_pos (show (0 : Fin S5000x256.rank) ∈ dot_S5000x256_S256x2_S5000x2_1_0_0_1_n_n.lhsNonContracting by decide)]
  rfl
theorem lhs_1 (i : S5000x2.Idx) (q : dot_S5000x256_S256x2_S5000x2_1_0_0_1_n_n.contr.Idx) : (dot_S5000x256_S256x2_S5000x2_1_0_0_1_n_n.lhsIdx i q 1).val = (q ⟨0, by decide⟩).val :=
  dot_S5000x256_S256x2_S5000x2_1_0_0_1_n_n.lhsIdx_val_of_single rfl i q
theorem rhs_0 (i : S5000x2.Idx) (q : dot_S5000x256_S256x2_S5000x2_1_0_0_1_n_n.contr.Idx) : (dot_S5000x256_S256x2_S5000x2_1_0_0_1_n_n.rhsIdx i q 0).val = (q ⟨0, by decide⟩).val :=
  dot_S5000x256_S256x2_S5000x2_1_0_0_1_n_n.rhsIdx_val_of_single rfl i q
theorem rhs_1 (i : S5000x2.Idx) (q : dot_S5000x256_S256x2_S5000x2_1_0_0_1_n_n.contr.Idx) : (dot_S5000x256_S256x2_S5000x2_1_0_0_1_n_n.rhsIdx i q 1).val = (i 1).val := by
  unfold DotDims.rhsIdx
  rw [dif_neg (show ¬(1 : Fin S256x2.rank) ∈ dot_S5000x256_S256x2_S5000x2_1_0_0_1_n_n.rhsBatch by decide), dif_pos (show (1 : Fin S256x2.rank) ∈ dot_S5000x256_S256x2_S5000x2_1_0_0_1_n_n.rhsNonContracting by decide)]
  rfl

/-! ## The two payloads at an entry: the row block times the matrix -/

theorem payY_apply (x0 : FVec Ideal S5000x256 .bf16) (x1 : FVec Ideal S256x2 .f32) (p : Fin 5000) (q : Fin 2) :
    k2_pay3 (F := Ideal) x0 x1 (ix2 p q) = ∑ k : Fin 256, x0 (ix2 p k) * x1 (ix2 k q) := by
  unfold k2_pay3 k2_pay1
  show matmul dot_S5000x256_S256x2_S5000x2_1_0_0_1_n_n none (shapeCast S5000x256 x0 shapeCasts_S5000x256_S5000x256) (truncf .bf16 (shapeCast S256x2 x1 shapeCasts_S256x2_S256x2) bitsLt_bf16_f32) (constant (F := Ideal) S5000x2 .f32 0x00000000#32) (ix2 p q) = _
  refine (Idealize.ShloMosaic.MatmulRowsByCols.matmul_zero_apply dot_S5000x256_S256x2_S5000x2_1_0_0_1_n_n rfl rfl lhs_0 lhs_1 rhs_0 rhs_1 none _ _ p q).trans ?_
  rw [shapeCast_self, shapeCast_self]
  rfl

theorem payZ_apply (x0 : FVec Ideal S5000x256 .bf16) (x1 : FVec Ideal S256x2 .f32) (p : Fin 5000) (q : Fin 2) :
    k2_pay2 (F := Ideal) x0 x1 (ix2 p q) = ∑ k : Fin 256, x0 (ix2 p k) * x1 (ix2 k q) := by
  unfold k2_pay2 k2_pay1
  show matmul dot_S5000x256_S256x2_S5000x2_1_0_0_1_n_n none (shapeCast S5000x256 x0 shapeCasts_S5000x256_S5000x256) (truncf .bf16 (shapeCast S256x2 x1 shapeCasts_S256x2_S256x2) bitsLt_bf16_f32) (constant (F := Ideal) S5000x2 .f32 0x00000000#32) (ix2 p q) = _
  refine (Idealize.ShloMosaic.MatmulRowsByCols.matmul_zero_apply dot_S5000x256_S256x2_S5000x2_1_0_0_1_n_n rfl rfl lhs_0 lhs_1 rhs_0 rhs_1 none _ _ p q).trans ?_
  rw [shapeCast_self, shapeCast_self]
  rfl

/-! ## The windows' block indices over the grid -/

/-- The row windows (0, 3, 4) are at block (t, 0) at point t; the matrix windows (1, 2) at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The table's block at point t, at (p, k), is the table at (5000·t + p, k). -/
theorem blkX_apply (c : Dev nD) (t : Fin cfg2.N) (p : Fin 5000) (k : Fin 256) (i : S50000x256.Idx)
    (hi0 : (i 0).val = t.val * 5000 + p.val) (hi1 : (i 1).val = k.val) :
    (iblk2 V c 0 t : FVec Ideal S5000x256 .bf16) (ix2 p k) = (V c main_v25 : S50000x256.Idx → EReal) i := by
  obtain ⟨e0, e1, -⟩ := idx_facts t
  unfold iblk2
  rw [View.read_apply]
  show (V c main_v25 : S50000x256.Idx → EReal) _ = _
  refine congrArg _ (funext fun a => Fin.ext ?_)
  match a with
  | ⟨0, _⟩ => show win2_0.index t (0 : Fin 2) * 5000 + 1 * p.val = (i 0).val; rw [e0, hi0]; omega
  | ⟨1, _⟩ => show win2_0.index t (1 : Fin 2) * 256 + 1 * k.val = (i 1).val; rw [e1, hi1]; omega

/-- The first matrix's block at any point is the matrix. -/
theorem blkWl_apply (c : Dev nD) (t : Fin cfg2.N) (k : Fin 256) (q : Fin 2) :
    (iblk2 V c 1 t : FVec Ideal S256x2 .f32) (ix2 k q) = (V c main_v26 : S256x2.Idx → EReal) (ix2 k q) := by
  obtain ⟨-, -, e0, e1, -⟩ := idx_facts t
  unfold iblk2
  rw [View.read_apply]
  show (V c main_v26 : S256x2.Idx → EReal) _ = _
  refine congrArg _ (funext fun a => Fin.ext ?_)
  match a with
  | ⟨0, _⟩ => show win2_1.index t (0 : Fin 2) * 256 + 1 * k.val = k.val; rw [e0]; omega
  | ⟨1, _⟩ => show win2_1.index t (1 : Fin 2) * 2 + 1 * q.val = q.val; rw [e1]; omega

/-- The second matrix's block at any point is the matrix. -/
theorem blkWr_apply (c : Dev nD) (t : Fin cfg2.N) (k : Fin 256) (q : Fin 2) :
    (iblk2 V c 2 t : FVec Ideal S256x2 .f32) (ix2 k q) = (V c main_v27 : S256x2.Idx → EReal) (ix2 k q) := by
  obtain ⟨-, -, -, -, e0, e1, -⟩ := idx_facts t
  unfold iblk2
  rw [View.read_apply]
  show (V c main_v27 : S256x2.Idx → EReal) _ = _
  refine congrArg _ (funext fun a => Fin.ext ?_)
  match a with
  | ⟨0, _⟩ => show win2_2.index t (0 : Fin 2) * 256 + 1 * k.val = k.val; rw [e0]; omega
  | ⟨1, _⟩ => show win2_2.index t (1 : Fin 2) * 2 + 1 * q.val = q.val; rw [e1]; omega

/-! ## What point t writes back -/

/-- Output window 3: block t of the table's product with the first matrix. -/
theorem flushedY_eq (c : Dev nD) (t : Fin cfg2.N) :
    (dat2 V c).flushed 3 t = ((cfg2.win 3).blk t).view.read (Elt Ideal)
      (proj (V c main_v25 : S50000x256.Idx → EReal) (V c main_v26 : S256x2.Idx → EReal) : S50000x2.Idx → EReal) := by
  show (cfg2.win 3).cut (grid2.coords t) ((dat2 V c).after 3 t) = _
  rw [after2_3]
  unfold out2_3
  rw [View.canon_unit_zero hz]
  simp only [View.ld_unit_zero (S := S5000x256) hz, View.ld_unit_zero (S := S256x2) hz]
  obtain ⟨-, -, -, -, -, -, e0, e1, -⟩ := idx_facts t
  funext j
  obtain ⟨p, q, rfl⟩ : ∃ (p : Fin 5000) (q : Fin 2), j = ix2 p q := ⟨j 0, j 1, eq_ix2 j⟩
  have hp : p.val < 5000 := p.isLt
  have ht : t.val < 10 := lt_of_lt_of_eq t.isLt (show cfg2.N = 10 from N_2)
  let r : Fin 50000 := ⟨t.val * 5000 + p.val, by omega⟩
  have hemb : ((cfg2.win 3).blk t).view.emb (ix2 p q) = (ix2 r q : S50000x2.Idx) := by
    funext a; apply Fin.ext
    match a with
    | ⟨0, _⟩ => show win2_3.index t (0 : Fin 2) * 5000 + 1 * p.val = t.val * 5000 + p.val; rw [e0]; omega
    | ⟨1, _⟩ => show win2_3.index t (1 : Fin 2) * 2 + 1 * q.val = q.val; rw [e1]; omega
  rw [View.read_apply, hemb, proj_ix2]
  refine (payY_apply (iblk2 V c 0 t) (iblk2 V c 1 t) p q).trans ?_
  refine Finset.sum_congr rfl fun k _ => ?_
  rw [blkX_apply V c t p k (ix2 r k) rfl rfl, blkWl_apply V c t k q]

/-- Output window 4: block t of the table's product with the second matrix. -/
theorem flushedZ_eq (c : Dev nD) (t : Fin cfg2.N) :
    (dat2 V c).flushed 4 t = ((cfg2.win 4).blk t).view.read (Elt Ideal)
      (proj (V c main_v25 : S50000x256.Idx → EReal) (V c main_v27 : S256x2.Idx → EReal) : S50000x2.Idx → EReal) := by
  show (cfg2.win 4).cut (grid2.coords t) ((dat2 V c).after 4 t) = _
  rw [after2_4]
  unfold out2_4
  rw [View.canon_unit_zero hz]
  simp only [View.ld_unit_zero (S := S5000x256) hz, View.ld_unit_zero (S := S256x2) hz]
  obtain ⟨-, -, -, -, -, -, -, -, e0, e1⟩ := idx_facts t
  funext j
  obtain ⟨p, q, rfl⟩ : ∃ (p : Fin 5000) (q : Fin 2), j = ix2 p q := ⟨j 0, j 1, eq_ix2 j⟩
  have hp : p.val < 5000 := p.isLt
  have ht : t.val < 10 := lt_of_lt_of_eq t.isLt (show cfg2.N = 10 from N_2)
  let r : Fin 50000 := ⟨t.val * 5000 + p.val, by omega⟩
  have hemb : ((cfg2.win 4).blk t).view.emb (ix2 p q) = (ix2 r q : S50000x2.Idx) := by
    funext a; apply Fin.ext
    match a with
    | ⟨0, _⟩ => show win2_4.index t (0 : Fin 2) * 5000 + 1 * p.val = t.val * 5000 + p.val; rw [e0]; omega
    | ⟨1, _⟩ => show win2_4.index t (1 : Fin 2) * 2 + 1 * q.val = q.val; rw [e1]; omega
  rw [View.read_apply, hemb, proj_ix2]
  refine (payZ_apply (iblk2 V c 0 t) (iblk2 V c 2 t) p q).trans ?_
  refine Finset.sum_congr rfl fun k _ => ?_
  rw [blkX_apply V c t p k (ix2 r k) rfl rfl, blkWr_apply V c t k q]

/-! ## The row blocks tile the rows -/

theorem coverY (i : S50000x2.Idx) : ∃ t : Fin cfg2.N, (cfg2.win 3).flush t = true ∧ i ∈ ((cfg2.win 3).blk t).view.set := by
  have h0 : (i 0).val < 50000 := (i 0).isLt
  have h1 : (i 1).val < 2 := (i 1).isLt
  let t : Fin cfg2.N := ⟨(i 0).val / 5000, by rw [show cfg2.N = 10 from N_2]; omega⟩
  obtain ⟨-, -, -, -, -, -, e0, e1, -⟩ := idx_facts t
  refine ⟨t, flush2_3 t, ?_⟩
  show i ∈ ((View.whole main_v28_0).slice (win2_3.rect t)).set
  rw [View.set_slice_whole, Rect.mem_set_unit]
  intro a
  match a with
  | ⟨0, _⟩ => show win2_3.index t (0 : Fin 2) * 5000 ≤ (i 0).val ∧ (i 0).val < win2_3.index t (0 : Fin 2) * 5000 + 5000; rw [e0]; show (i 0).val / 5000 * 5000 ≤ (i 0).val ∧ (i 0).val < (i 0).val / 5000 * 5000 + 5000; omega
  | ⟨1, _⟩ => show win2_3.index t (1 : Fin 2) * 2 ≤ (i 1).val ∧ (i 1).val < win2_3.index t (1 : Fin 2) * 2 + 2; rw [e1]; omega

theorem coverZ (i : S50000x2.Idx) : ∃ t : Fin cfg2.N, (cfg2.win 4).flush t = true ∧ i ∈ ((cfg2.win 4).blk t).view.set := by
  have h0 : (i 0).val < 50000 := (i 0).isLt
  have h1 : (i 1).val < 2 := (i 1).isLt
  let t : Fin cfg2.N := ⟨(i 0).val / 5000, by rw [show cfg2.N = 10 from N_2]; omega⟩
  obtain ⟨-, -, -, -, -, -, -, -, e0, e1⟩ := idx_facts t
  refine ⟨t, flush2_4 t, ?_⟩
  show i ∈ ((View.whole main_v28_1).slice (win2_4.rect t)).set
  rw [View.set_slice_whole, Rect.mem_set_unit]
  intro a
  match a with
  | ⟨0, _⟩ => show win2_4.index t (0 : Fin 2) * 5000 ≤ (i 0).val ∧ (i 0).val < win2_4.index t (0 : Fin 2) * 5000 + 5000; rw [e0]; show (i 0).val / 5000 * 5000 ≤ (i 0).val ∧ (i 0).val < (i 0).val / 5000 * 5000 + 5000; omega
  | ⟨1, _⟩ => show win2_4.index t (1 : Fin 2) * 2 ≤ (i 1).val ∧ (i 1).val < win2_4.index t (1 : Fin 2) * 2 + 2; rw [e1]; omega

/-! ## The output arrays after the pipeline -/

/-- The first output array ends at the table's product with the first matrix. -/
theorem finalY (c : Dev nD) : (dat2 V c).arrAt 3 cfg2.N
    = (proj (V c main_v25 : S50000x256.Idx → EReal) (V c main_v26 : S256x2.Idx → EReal) : S50000x2.Idx → EReal) :=
  (dat2 V c).arrAt_eq_of_cover 3 _ (fun t _ => flushedY_eq V c t) coverY

/-- The second output array ends at the table's product with the second matrix. -/
theorem finalZ (c : Dev nD) : (dat2 V c).arrAt 4 cfg2.N
    = (proj (V c main_v25 : S50000x256.Idx → EReal) (V c main_v27 : S256x2.Idx → EReal) : S50000x2.Idx → EReal) :=
  (dat2 V c).arrAt_eq_of_cover 4 _ (fun t _ => flushedZ_eq V c t) coverZ

end Cert.KernelIdeal.Val2

end
-- ==== Proof.KCombine3.lean ====
/-
  Pipeline 3 of the kernel (the mean, the bias and the root term put together), read as a whole array.

  The grid has 10 points; point t stages rows 5000·t … 5000·t + 4999 of the summed messages, of the degree column and of
  the root term, and the bias whole; its body stores, at (p, q) of the output block, the summed message divided by
  the row's degree, plus the bias at q, plus the root term. Every operation is pointwise once the degree column is
  broadcast along the row and the bias down the rows, so the output block is the block of ONE whole-array function,
  `combine`, and since the 10 row blocks tile the 50000 rows the output array ends holding that function.
-/
import proofs.«105053_j57200374448341_2_alg».proof.Proof.Gen.KernelIdeal.Frame
import proofs.«105053_j57200374448341_2_alg».proof.Proof.Stages
import proofs.«105053_j57200374448341_2_alg».proof.Proof.LibColumnLayout
import proofs.«105053_j57200374448341_2_alg».proof.Proof.LibOneRowMatrix
import Idealize.ShloMosaic.Lib.Pipeline.Value
import Idealize.ShloMosaic.Lib.ValueIdx

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Val3

open Cert.KernelIdeal Cert.KernelIdeal.Gen SageLaw

theorem hz : (![0, 0] : Fin 2 → Nat) = fun _ => 0 := funext fun a => by fin_cases a <;> rfl
theorem hz1 : (![0] : Fin 1 → Nat) = fun _ => 0 := funext fun a => by fin_cases a; rfl

/-! ## The payload at an entry -/

theorem pay_apply (x0 : FVec Ideal S5000x2 .f32) (x1 : FVec Ideal S5000x1 .f32) (x3 : FVec Ideal S2 .f32) (x2 : FVec Ideal S5000x2 .f32)
    (p : Fin 5000) (q : Fin 2) :
    k3_pay1 (F := Ideal) x0 x1 x3 x2 (ix2 p q)
      = (Ideal.div (x0 (ix2 p q)) (x1 (ix2 p 0)) + x3 (ix1 q)) + x2 (ix2 p q) := by
  unfold k3_pay1
  show (Ideal.div (shapeCast S5000x2 x0 shapeCasts_S5000x2_S5000x2 (ix2 p q)) (broadcastTo S5000x2 (shapeCast S5000x1 x1 shapeCasts_S5000x1_S5000x1) broadcasts_S5000x1_S5000x2 (ix2 p q)) + broadcastTo S5000x2 (shapeCast S1x2 x3 shapeCasts_S2_S1x2) broadcasts_S1x2_S5000x2 (ix2 p q)) + shapeCast S5000x2 x2 shapeCasts_S5000x2_S5000x2 (ix2 p q) = _
  rw [shapeCast_self, shapeCast_self, shapeCast_self, broadcastTo_a1_ab_apply,
    Idealize.ShloMosaic.OneRowMatrix.broadcast_row_apply, Idealize.ShloMosaic.OneRowMatrix.row_of_vector]

/-! ## The windows' block indices over the grid -/

/-- The row windows (0, 1, 2, 4) are at block (t, 0) at point t; the bias window at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- The summed messages' block at point t, at (p, q), is the array at (5000·t + p, q). -/
theorem blkA_apply (c : Dev nD) (t : Fin cfg3.N) (p : Fin 5000) (q : Fin 2) (i : S50000x2.Idx)
    (hi0 : (i 0).val = t.val * 5000 + p.val) (hi1 : (i 1).val = q.val) :
    (iblk3 V c 0 t : FVec Ideal S5000x2 .f32) (ix2 p q) = (V c main_v39 : S50000x2.Idx → EReal) i := by
  obtain ⟨e0, e1, -⟩ := idx_facts t
  unfold iblk3
  rw [View.read_apply]
  show (V c main_v39 : S50000x2.Idx → EReal) _ = _
  refine congrArg _ (funext fun a => Fin.ext ?_)
  match a with
  | ⟨0, _⟩ => show win3_0.index t (0 : Fin 2) * 5000 + 1 * p.val = (i 0).val; rw [e0, hi0]; omega
  | ⟨1, _⟩ => show win3_0.index t (1 : Fin 2) * 2 + 1 * q.val = (i 1).val; rw [e1, hi1]; omega

/-- The degree column's block at point t, at (p, 0), is the column at (5000·t + p, 0). -/
theorem blkD_apply (c : Dev nD) (t : Fin cfg3.N) (p : Fin 5000) (i : S50000x1.Idx)
    (hi0 : (i 0).val = t.val * 5000 + p.val) :
    (iblk3 V c 1 t : FVec Ideal S5000x1 .f32) (ix2 p 0) = (V c main_v10 : S50000x1.Idx → EReal) i := by
  obtain ⟨-, -, e0, e1, -⟩ := idx_facts t
  unfold iblk3
  rw [View.read_apply]
  show (V c main_v10 : S50000x1.Idx → EReal) _ = _
  refine congrArg _ (funext fun a => Fin.ext ?_)
  have hi1 : (i 1).val < 1 := (i 1).isLt
  match a with
  | ⟨0, _⟩ => show win3_1.index t (0 : Fin 2) * 5000 + 1 * p.val = (i 0).val; rw [e0, hi0]; omega
  | ⟨1, _⟩ => show win3_1.index t (1 : Fin 2) * 1 + 1 * 0 = (i 1).val; rw [e1]; omega

/-- The root term's block at point t, at (p, q), is the array at (5000·t + p, q). -/
theorem blkZ_apply (c : Dev nD) (t : Fin cfg3.N) (p : Fin 5000) (q : Fin 2) (i : S50000x2.Idx)
    (hi0 : (i 0).val = t.val * 5000 + p.val) (hi1 : (i 1).val = q.val) :
    (iblk3 V c 2 t : FVec Ideal S5000x2 .f32) (ix2 p q) = (V c main_v28_1 : S50000x2.Idx → EReal) i := by
  obtain ⟨-, -, -, -, e0, e1, -⟩ := idx_facts t
  unfold iblk3
  rw [View.read_apply]
  show (V c main_v28_1 : S50000x2.Idx → EReal) _ = _
  refine congrArg _ (funext fun a => Fin.ext ?_)
  match a with
  | ⟨0, _⟩ => show win3_2.index t (0 : Fin 2) * 5000 + 1 * p.val = (i 0).val; rw [e0, hi0]; omega
  | ⟨1, _⟩ => show win3_2.index t (1 : Fin 2) * 2 + 1 * q.val = (i 1).val; rw [e1, hi1]; omega

/-- The bias's block at any point is the bias. -/
theorem blkB_apply (c : Dev nD) (t : Fin cfg3.N) (q : Fin 2) :
    (iblk3 V c 3 t : FVec Ideal S2 .f32) (ix1 q) = (V c main_arg6 : S2.Idx → EReal) (ix1 q) := by
  obtain ⟨-, -, -, -, -, -, e0, -⟩ := idx_facts t
  unfold iblk3
  rw [View.read_apply]
  show (V c main_arg6 : S2.Idx → EReal) _ = _
  refine congrArg _ (funext fun a => Fin.ext ?_)
  match a with
  | ⟨0, _⟩ => show win3_3.index t (0 : Fin 1) * 2 + 1 * q.val = q.val; rw [e0]; omega

/-! ## What point t writes back -/

theorem flushed_eq (c : Dev nD) (t : Fin cfg3.N) :
    (dat3 V c).flushed 4 t = ((cfg3.win 4).blk t).view.read (Elt Ideal)
      (combine (V c main_v39 : S50000x2.Idx → EReal) (V c main_v10 : S50000x1.Idx → EReal) (V c main_v28_1 : S50000x2.Idx → EReal) (V c main_arg6 : S2.Idx → EReal) : S50000x2.Idx → EReal) := by
  show (cfg3.win 4).cut (grid3.coords t) ((dat3 V c).after 4 t) = _
  rw [after3_4]
  unfold out3_4
  rw [View.canon_unit_zero hz]
  simp only [View.ld_unit_zero (S := S5000x2) hz, View.ld_unit_zero (S := S5000x1) hz, View.ld_unit_zero (S := S2) hz1]
  obtain ⟨-, -, -, -, -, -, -, e0, e1⟩ := idx_facts t
  funext j
  obtain ⟨p, q, rfl⟩ : ∃ (p : Fin 5000) (q : Fin 2), j = ix2 p q := ⟨j 0, j 1, eq_ix2 j⟩
  have hp : p.val < 5000 := p.isLt
  have ht : t.val < 10 := lt_of_lt_of_eq t.isLt (show cfg3.N = 10 from N_3)
  let r : Fin 50000 := ⟨t.val * 5000 + p.val, by omega⟩
  have hemb : ((cfg3.win 4).blk t).view.emb (ix2 p q) = (ix2 r q : S50000x2.Idx) := by
    funext a; apply Fin.ext
    match a with
    | ⟨0, _⟩ => show win3_4.index t (0 : Fin 2) * 5000 + 1 * p.val = t.val * 5000 + p.val; rw [e0]; omega
    | ⟨1, _⟩ => show win3_4.index t (1 : Fin 2) * 2 + 1 * q.val = q.val; rw [e1]; omega
  rw [View.read_apply, hemb, combine_ix2]
  refine (pay_apply (iblk3 V c 0 t) (iblk3 V c 1 t) (iblk3 V c 3 t) (iblk3 V c 2 t) p q).trans ?_
  rw [blkA_apply V c t p q (ix2 r q) rfl rfl, blkD_apply V c t p (ix2 r 0) rfl, blkB_apply V c t q,
    blkZ_apply V c t p q (ix2 r q) rfl rfl]
  rfl

/-! ## The row blocks tile the rows -/

theorem cover (i : S50000x2.Idx) : ∃ t : Fin cfg3.N, (cfg3.win 4).flush t = true ∧ i ∈ ((cfg3.win 4).blk t).view.set := by
  have h0 : (i 0).val < 50000 := (i 0).isLt
  have h1 : (i 1).val < 2 := (i 1).isLt
  let t : Fin cfg3.N := ⟨(i 0).val / 5000, by rw [show cfg3.N = 10 from N_3]; omega⟩
  obtain ⟨-, -, -, -, -, -, -, e0, e1⟩ := idx_facts t
  refine ⟨t, flush3_4 t, ?_⟩
  show i ∈ ((View.whole main_v40).slice (win3_4.rect t)).set
  rw [View.set_slice_whole, Rect.mem_set_unit]
  intro a
  match a with
  | ⟨0, _⟩ => show win3_4.index t (0 : Fin 2) * 5000 ≤ (i 0).val ∧ (i 0).val < win3_4.index t (0 : Fin 2) * 5000 + 5000; rw [e0]; show (i 0).val / 5000 * 5000 ≤ (i 0).val ∧ (i 0).val < (i 0).val / 5000 * 5000 + 5000; omega
  | ⟨1, _⟩ => show win3_4.index t (1 : Fin 2) * 2 ≤ (i 1).val ∧ (i 1).val < win3_4.index t (1 : Fin 2) * 2 + 2; rw [e1]; omega

/-! ## The output array after the pipeline -/

theorem final (c : Dev nD) : (dat3 V c).arrAt 4 cfg3.N
    = (combine (V c main_v39 : S50000x2.Idx → EReal) (V c main_v10 : S50000x1.Idx → EReal) (V c main_v28_1 : S50000x2.Idx → EReal) (V c main_arg6 : S2.Idx → EReal) : S50000x2.Idx → EReal) :=
  (dat3 V c).arrAt_eq_of_cover 4 _ (fun t _ => flushed_eq V c t) cover

end Cert.KernelIdeal.Val3

end
-- ==== Proof.KFold.lean ====
/-
  The idealized kernel's program, folded: what every buffer a pipeline reads holds when the pipeline is entered, as a
  function of the launch memory.

  The program is four stretches of host operations alternating with four pipelines. The host computes, from the edge
  list, the source and target index vectors, the degree column (the number of edges into each node, floored at one)
  and the transposed weight matrices; pipeline 0 projects the node table through the first layer's two matrices;
  the host gathers the projected rows at the sources and sums them at the targets; pipeline 1 divides by the degree,
  adds the bias and the root term and rectifies; pipelines 2 and 3 with the host between them do the same for the
  second layer, without the rectifier. Each value below is named once (`src`, `dst`, `cntCol`, `y1`, `z1`, `agg1`,
  `hid`, `y2`, `z2`, `agg2`, `out`) and each lemma `atJ_b` says that buffer `b` holds its named value at segment
  boundary J: a host stretch is read by unfolding its operations in order, a buffer it does not write keeps its
  contents, a pipeline changes only its output arrays, and those end at the whole-array functions of the four
  pipeline modules.
-/
import proofs.«105053_j57200374448341_2_alg».proof.Proof.Gen.KernelIdeal.Frame
import proofs.«105053_j57200374448341_2_alg».proof.Proof.Stages
import proofs.«105053_j57200374448341_2_alg».proof.Proof.KProject0
import proofs.«105053_j57200374448341_2_alg».proof.Proof.KCombine1
import proofs.«105053_j57200374448341_2_alg».proof.Proof.KProject2
import proofs.«105053_j57200374448341_2_alg».proof.Proof.KCombine3
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen SageLaw

variable (m : (ℓ : Loc nD τ sig) → Buf (Elt Ideal) ℓ) (ρ : Dev nD → PrngReg) (c : Dev nD)

/-! ## The named values -/

/-- The edges' source indices: row 0 of the edge list. -/
def src : IVec S250000 32 :=
  shapeCast S250000 (extractStridedSlice S1x250000 ![0, 0] (m ((c : Thread nD τ).loc main_arg1)) slices_S2x250000_S1x250000_0_0) shapeCasts_S1x250000_S250000

/-- The edges' target indices: row 1 of the edge list. -/
def dst : IVec S250000 32 :=
  shapeCast S250000 (extractStridedSlice S1x250000 ![1, 0] (m ((c : Thread nD τ).loc main_arg1)) slices_S2x250000_S1x250000_1_0) shapeCasts_S1x250000_S250000

/-- The source indices, a negative one wrapped by the table's height, as a column of start indices. -/
def idxS : IVec S250000x1 32 :=
  broadcastInDim S250000x1 ![0] bcast_S250000_S250000x1_0
    (select (cmpi .slt (src m c) (broadcastInDim S250000 ![] bcast_S_S250000 (constantI S_ 32 0#32)))
      (addi (src m c) (broadcastInDim S250000 ![] bcast_S_S250000 (constantI S_ 32 50000#32))) (src m c))

/-- The target indices as a column of scatter indices. -/
def idxD : IVec S250000x1 32 := broadcastInDim S250000x1 ![0] bcast_S250000_S250000x1_0 (dst m c)

/-- The degree column: ones summed at the targets from zero, floored at one. -/
def cntCol : FVec Ideal S50000x1 .f32 :=
  broadcastInDim S50000x1 ![0] bcast_S50000_S50000x1_0
    (maximumf (Host.scatterAdd (F := Ideal) scatter_S50000_S250000x1_S250000_n_0_0_1
        (broadcastInDim S50000 ![] bcast_S_S50000 (constant (F := Ideal) S_ .f32 0x00000000#32))
        (broadcastInDim S250000x1 ![0] bcast_S250000_S250000x1_0 (dst m c))
        (broadcastInDim S250000 ![] bcast_S_S250000 (constant (F := Ideal) S_ .f32 0x3F800000#32)))
      (broadcastInDim S50000 ![] bcast_S_S50000 (constant (F := Ideal) S_ .f32 0x3F800000#32)))

/-- The first layer's two matrices, transposed. -/
def w1lT : FVec Ideal S768x256 .f32 := transpose S768x256 [1, 0] (m ((c : Thread nD τ).loc main_arg2)) transposes_S256x768_S768x256_1_0
def w1rT : FVec Ideal S768x256 .f32 := transpose S768x256 [1, 0] (m ((c : Thread nD τ).loc main_arg4)) transposes_S256x768_S768x256_1_0

/-- The node table projected through them. -/
def y1 : FVec Ideal S50000x256 .bf16 := proj (m ((c : Thread nD τ).loc main_arg0)) (w1lT m c)
def z1 : FVec Ideal S50000x256 .f32 := proj (m ((c : Thread nD τ).loc main_arg0)) (w1rT m c)

/-- The projected rows gathered at the sources and summed at the targets, from zero. -/
def agg1 : FVec Ideal S50000x256 .f32 :=
  Host.scatterAdd (F := Ideal) scatter_S50000x256_S250000x1_S250000x256_1_0_0_1
    (broadcastInDim S50000x256 ![] bcast_S_S50000x256 (constant (F := Ideal) S_ .f32 0x00000000#32)) (idxD m c)
    (extf .f32 (Host.gather gather_S50000x256_S250000x1_S250000x256_1_0_n_n_0_1_1256 (y1 m c) (idxS m c)) bitsLt_bf16_f32)

/-- The first layer's output, rectified. -/
def hid : FVec Ideal S50000x256 .bf16 := combineRelu (agg1 m c) (cntCol m c) (z1 m c) (m ((c : Thread nD τ).loc main_arg3))

/-- The second layer's two matrices, transposed. -/
def w2lT : FVec Ideal S256x2 .f32 := transpose S256x2 [1, 0] (m ((c : Thread nD τ).loc main_arg5)) transposes_S2x256_S256x2_1_0
def w2rT : FVec Ideal S256x2 .f32 := transpose S256x2 [1, 0] (m ((c : Thread nD τ).loc main_arg7)) transposes_S2x256_S256x2_1_0

/-- The hidden table projected through them. -/
def y2 : FVec Ideal S50000x2 .bf16 := proj (hid m c) (w2lT m c)
def z2 : FVec Ideal S50000x2 .f32 := proj (hid m c) (w2rT m c)

/-- The projected rows gathered at the sources and summed at the targets, from zero. -/
def agg2 : FVec Ideal S50000x2 .f32 :=
  Host.scatterAdd (F := Ideal) scatter_S50000x2_S250000x1_S250000x2_1_0_0_1
    (broadcastInDim S50000x2 ![] bcast_S_S50000x2 (constant (F := Ideal) S_ .f32 0x00000000#32)) (idxD m c)
    (extf .f32 (Host.gather gather_S50000x2_S250000x1_S250000x2_1_0_n_n_0_1_12 (y2 m c) (idxS m c)) bitsLt_bf16_f32)

/-- The second layer's output: the program's result. -/
def out : FVec Ideal S50000x2 .f32 := combine (agg2 m c) (cntCol m c) (z2 m c) (m ((c : Thread nD τ).loc main_arg6))

/-! ## Each buffer at each segment boundary -/

theorem at1_main_arg0 : W1 m ρ c (Proc.devRef .tc main_arg0) = m ((c : Thread nD τ).loc main_arg0) := by
  show StableHlo.after hostOps0 (W0 m ρ c) (Proc.devRef .tc main_arg0) = _
  after_results

theorem at1_main_arg3 : W1 m ρ c (Proc.devRef .tc main_arg3) = m ((c : Thread nD τ).loc main_arg3) := by
  show StableHlo.after hostOps0 (W0 m ρ c) (Proc.devRef .tc main_arg3) = _
  after_results

theorem at1_main_arg5 : W1 m ρ c (Proc.devRef .tc main_arg5) = m ((c : Thread nD τ).loc main_arg5) := by
  show StableHlo.after hostOps0 (W0 m ρ c) (Proc.devRef .tc main_arg5) = _
  after_results

theorem at1_main_arg6 : W1 m ρ c (Proc.devRef .tc main_arg6) = m ((c : Thread nD τ).loc main_arg6) := by
  show StableHlo.after hostOps0 (W0 m ρ c) (Proc.devRef .tc main_arg6) = _
  after_results

theorem at1_main_arg7 : W1 m ρ c (Proc.devRef .tc main_arg7) = m ((c : Thread nD τ).loc main_arg7) := by
  show StableHlo.after hostOps0 (W0 m ρ c) (Proc.devRef .tc main_arg7) = _
  after_results

theorem at1_main_v1 : W1 m ρ c (Proc.devRef .tc main_v1) = src m c := by
  show StableHlo.after hostOps0 (W0 m ρ c) (Proc.devRef .tc main_v1) = _
  after_results
  rfl

theorem at1_main_v3 : W1 m ρ c (Proc.devRef .tc main_v3) = dst m c := by
  show StableHlo.after hostOps0 (W0 m ρ c) (Proc.devRef .tc main_v3) = _
  after_results
  rfl

theorem at1_main_v10 : W1 m ρ c (Proc.devRef .tc main_v10) = cntCol m c := by
  show StableHlo.after hostOps0 (W0 m ρ c) (Proc.devRef .tc main_v10) = _
  after_results
  rfl

theorem at1_main_v11 : W1 m ρ c (Proc.devRef .tc main_v11) = w1lT m c := by
  show StableHlo.after hostOps0 (W0 m ρ c) (Proc.devRef .tc main_v11) = _
  after_results
  rfl

theorem at1_main_v12 : W1 m ρ c (Proc.devRef .tc main_v12) = w1rT m c := by
  show StableHlo.after hostOps0 (W0 m ρ c) (Proc.devRef .tc main_v12) = _
  after_results
  rfl

theorem at2_main_v13_0 : W2 m ρ c (Proc.devRef .tc main_v13_0) = y1 m c := by
  refine (W2_arr m ρ c 3).trans ((Val0.finalY (V1 m ρ) c).trans ?_)
  show proj (W1 m ρ c (Proc.devRef .tc main_arg0)) (W1 m ρ c (Proc.devRef .tc main_v11)) = _
  rw [at1_main_arg0 m ρ c, at1_main_v11 m ρ c]
  rfl

theorem at2_main_v13_1 : W2 m ρ c (Proc.devRef .tc main_v13_1) = z1 m c := by
  refine (W2_arr m ρ c 4).trans ((Val0.finalZ (V1 m ρ) c).trans ?_)
  show proj (W1 m ρ c (Proc.devRef .tc main_arg0)) (W1 m ρ c (Proc.devRef .tc main_v12)) = _
  rw [at1_main_arg0 m ρ c, at1_main_v12 m ρ c]
  rfl

theorem at2_main_v1 : W2 m ρ c (Proc.devRef .tc main_v1) = src m c :=
  (W2_of_ne m ρ c main_v1 (by decide)).trans (at1_main_v1 m ρ c)

theorem at2_main_v3 : W2 m ρ c (Proc.devRef .tc main_v3) = dst m c :=
  (W2_of_ne m ρ c main_v3 (by decide)).trans (at1_main_v3 m ρ c)

theorem at2_main_v10 : W2 m ρ c (Proc.devRef .tc main_v10) = cntCol m c :=
  (W2_of_ne m ρ c main_v10 (by decide)).trans (at1_main_v10 m ρ c)

theorem at2_main_arg3 : W2 m ρ c (Proc.devRef .tc main_arg3) = m ((c : Thread nD τ).loc main_arg3) :=
  (W2_of_ne m ρ c main_arg3 (by decide)).trans (at1_main_arg3 m ρ c)

theorem at2_main_arg5 : W2 m ρ c (Proc.devRef .tc main_arg5) = m ((c : Thread nD τ).loc main_arg5) :=
  (W2_of_ne m ρ c main_arg5 (by decide)).trans (at1_main_arg5 m ρ c)

theorem at2_main_arg6 : W2 m ρ c (Proc.devRef .tc main_arg6) = m ((c : Thread nD τ).loc main_arg6) :=
  (W2_of_ne m ρ c main_arg6 (by decide)).trans (at1_main_arg6 m ρ c)

theorem at2_main_arg7 : W2 m ρ c (Proc.devRef .tc main_arg7) = m ((c : Thread nD τ).loc main_arg7) :=
  (W2_of_ne m ρ c main_arg7 (by decide)).trans (at1_main_arg7 m ρ c)

theorem at3_main_v24 : W3 m ρ c (Proc.devRef .tc main_v24) = agg1 m c := by
  show StableHlo.after hostOps1 (W2 m ρ c) (Proc.devRef .tc main_v24) = _
  after_results
  rw [at2_main_v13_0 m ρ c, at2_main_v1 m ρ c, at2_main_v3 m ρ c]
  rfl

theorem at3_main_v10 : W3 m ρ c (Proc.devRef .tc main_v10) = cntCol m c := by
  show StableHlo.after hostOps1 (W2 m ρ c) (Proc.devRef .tc main_v10) = _
  after_results
  exact at2_main_v10 m ρ c

theorem at3_main_v13_1 : W3 m ρ c (Proc.devRef .tc main_v13_1) = z1 m c := by
  show StableHlo.after hostOps1 (W2 m ρ c) (Proc.devRef .tc main_v13_1) = _
  after_results
  exact at2_main_v13_1 m ρ c

theorem at3_main_arg3 : W3 m ρ c (Proc.devRef .tc main_arg3) = m ((c : Thread nD τ).loc main_arg3) := by
  show StableHlo.after hostOps1 (W2 m ρ c) (Proc.devRef .tc main_arg3) = _
  after_results
  exact at2_main_arg3 m ρ c

theorem at3_main_v1 : W3 m ρ c (Proc.devRef .tc main_v1) = src m c := by
  show StableHlo.after hostOps1 (W2 m ρ c) (Proc.devRef .tc main_v1) = _
  after_results
  exact at2_main_v1 m ρ c

theorem at3_main_v3 : W3 m ρ c (Proc.devRef .tc main_v3) = dst m c := by
  show StableHlo.after hostOps1 (W2 m ρ c) (Proc.devRef .tc main_v3) = _
  after_results
  exact at2_main_v3 m ρ c

theorem at3_main_arg5 : W3 m ρ c (Proc.devRef .tc main_arg5) = m ((c : Thread nD τ).loc main_arg5) := by
  show StableHlo.after hostOps1 (W2 m ρ c) (Proc.devRef .tc main_arg5) = _
  after_results
  exact at2_main_arg5 m ρ c

theorem at3_main_arg6 : W3 m ρ c (Proc.devRef .tc main_arg6) = m ((c : Thread nD τ).loc main_arg6) := by
  show StableHlo.after hostOps1 (W2 m ρ c) (Proc.devRef .tc main_arg6) = _
  after_results
  exact at2_main_arg6 m ρ c

theorem at3_main_arg7 : W3 m ρ c (Proc.devRef .tc main_arg7) = m ((c : Thread nD τ).loc main_arg7) := by
  show StableHlo.after hostOps1 (W2 m ρ c) (Proc.devRef .tc main_arg7) = _
  after_results
  exact at2_main_arg7 m ρ c

theorem at4_main_v25 : W4 m ρ c (Proc.devRef .tc main_v25) = hid m c := by
  refine (W4_arr m ρ c 4).trans ((Val1.final (V3 m ρ) c).trans ?_)
  show combineRelu (W3 m ρ c (Proc.devRef .tc main_v24)) (W3 m ρ c (Proc.devRef .tc main_v10)) (W3 m ρ c (Proc.devRef .tc main_v13_1)) (W3 m ρ c (Proc.devRef .tc main_arg3)) = _
  rw [at3_main_v24 m ρ c, at3_main_v10 m ρ c, at3_main_v13_1 m ρ c, at3_main_arg3 m ρ c]
  rfl

theorem at4_main_v1 : W4 m ρ c (Proc.devRef .tc main_v1) = src m c :=
  (W4_of_ne m ρ c main_v1 (by decide)).trans (at3_main_v1 m ρ c)

theorem at4_main_v3 : W4 m ρ c (Proc.devRef .tc main_v3) = dst m c :=
  (W4_of_ne m ρ c main_v3 (by decide)).trans (at3_main_v3 m ρ c)

theorem at4_main_v10 : W4 m ρ c (Proc.devRef .tc main_v10) = cntCol m c :=
  ((W4_arr m ρ c 1).trans (((dat1 (V3 m ρ) c).arrAt_in 1 rfl _).trans (A_eq1 (V3 m ρ) c 1))).trans (at3_main_v10 m ρ c)

theorem at4_main_arg5 : W4 m ρ c (Proc.devRef .tc main_arg5) = m ((c : Thread nD τ).loc main_arg5) :=
  (W4_of_ne m ρ c main_arg5 (by decide)).trans (at3_main_arg5 m ρ c)

theorem at4_main_arg6 : W4 m ρ c (Proc.devRef .tc main_arg6) = m ((c : Thread nD τ).loc main_arg6) :=
  (W4_of_ne m ρ c main_arg6 (by decide)).trans (at3_main_arg6 m ρ c)

theorem at4_main_arg7 : W4 m ρ c (Proc.devRef .tc main_arg7) = m ((c : Thread nD τ).loc main_arg7) :=
  (W4_of_ne m ρ c main_arg7 (by decide)).trans (at3_main_arg7 m ρ c)

theorem at5_main_v26 : W5 m ρ c (Proc.devRef .tc main_v26) = w2lT m c := by
  show StableHlo.after hostOps2 (W4 m ρ c) (Proc.devRef .tc main_v26) = _
  after_results
  rw [at4_main_arg5 m ρ c]
  rfl

theorem at5_main_v27 : W5 m ρ c (Proc.devRef .tc main_v27) = w2rT m c := by
  show StableHlo.after hostOps2 (W4 m ρ c) (Proc.devRef .tc main_v27) = _
  after_results
  rw [at4_main_arg7 m ρ c]
  rfl

theorem at5_main_v25 : W5 m ρ c (Proc.devRef .tc main_v25) = hid m c := by
  show StableHlo.after hostOps2 (W4 m ρ c) (Proc.devRef .tc main_v25) = _
  after_results
  exact at4_main_v25 m ρ c

theorem at5_main_v1 : W5 m ρ c (Proc.devRef .tc main_v1) = src m c := by
  show StableHlo.after hostOps2 (W4 m ρ c) (Proc.devRef .tc main_v1) = _
  after_results
  exact at4_main_v1 m ρ c

theorem at5_main_v3 : W5 m ρ c (Proc.devRef .tc main_v3) = dst m c := by
  show StableHlo.after hostOps2 (W4 m ρ c) (Proc.devRef .tc main_v3) = _
  after_results
  exact at4_main_v3 m ρ c

theorem at5_main_v10 : W5 m ρ c (Proc.devRef .tc main_v10) = cntCol m c := by
  show StableHlo.after hostOps2 (W4 m ρ c) (Proc.devRef .tc main_v10) = _
  after_results
  exact at4_main_v10 m ρ c

theorem at5_main_arg6 : W5 m ρ c (Proc.devRef .tc main_arg6) = m ((c : Thread nD τ).loc main_arg6) := by
  show StableHlo.after hostOps2 (W4 m ρ c) (Proc.devRef .tc main_arg6) = _
  after_results
  exact at4_main_arg6 m ρ c

theorem at6_main_v28_0 : W6 m ρ c (Proc.devRef .tc main_v28_0) = y2 m c := by
  refine (W6_arr m ρ c 3).trans ((Val2.finalY (V5 m ρ) c).trans ?_)
  show proj (W5 m ρ c (Proc.devRef .tc main_v25)) (W5 m ρ c (Proc.devRef .tc main_v26)) = _
  rw [at5_main_v25 m ρ c, at5_main_v26 m ρ c]
  rfl

theorem at6_main_v28_1 : W6 m ρ c (Proc.devRef .tc main_v28_1) = z2 m c := by
  refine (W6_arr m ρ c 4).trans ((Val2.finalZ (V5 m ρ) c).trans ?_)
  show proj (W5 m ρ c (Proc.devRef .tc main_v25)) (W5 m ρ c (Proc.devRef .tc main_v27)) = _
  rw [at5_main_v25 m ρ c, at5_main_v27 m ρ c]
  rfl

theorem at6_main_v1 : W6 m ρ c (Proc.devRef .tc main_v1) = src m c :=
  (W6_of_ne m ρ c main_v1 (by decide)).trans (at5_main_v1 m ρ c)

theorem at6_main_v3 : W6 m ρ c (Proc.devRef .tc main_v3) = dst m c :=
  (W6_of_ne m ρ c main_v3 (by decide)).trans (at5_main_v3 m ρ c)

theorem at6_main_v10 : W6 m ρ c (Proc.devRef .tc main_v10) = cntCol m c :=
  (W6_of_ne m ρ c main_v10 (by decide)).trans (at5_main_v10 m ρ c)

theorem at6_main_arg6 : W6 m ρ c (Proc.devRef .tc main_arg6) = m ((c : Thread nD τ).loc main_arg6) :=
  (W6_of_ne m ρ c main_arg6 (by decide)).trans (at5_main_arg6 m ρ c)

theorem at7_main_v39 : W7 m ρ c (Proc.devRef .tc main_v39) = agg2 m c := by
  show StableHlo.after hostOps3 (W6 m ρ c) (Proc.devRef .tc main_v39) = _
  after_results
  rw [at6_main_v28_0 m ρ c, at6_main_v1 m ρ c, at6_main_v3 m ρ c]
  rfl

theorem at7_main_v10 : W7 m ρ c (Proc.devRef .tc main_v10) = cntCol m c := by
  show StableHlo.after hostOps3 (W6 m ρ c) (Proc.devRef .tc main_v10) = _
  after_results
  exact at6_main_v10 m ρ c

theorem at7_main_v28_1 : W7 m ρ c (Proc.devRef .tc main_v28_1) = z2 m c := by
  show StableHlo.after hostOps3 (W6 m ρ c) (Proc.devRef .tc main_v28_1) = _
  after_results
  exact at6_main_v28_1 m ρ c

theorem at7_main_arg6 : W7 m ρ c (Proc.devRef .tc main_arg6) = m ((c : Thread nD τ).loc main_arg6) := by
  show StableHlo.after hostOps3 (W6 m ρ c) (Proc.devRef .tc main_arg6) = _
  after_results
  exact at6_main_arg6 m ρ c

/-- THE RESULT: the fold of the program's segments at the result's buffer is the second layer's output. -/
theorem at8_main_v40 : W8 m ρ c (Proc.devRef .tc main_v40) = out m c := by
  refine (W8_arr m ρ c 4).trans ((Val3.final (V7 m ρ) c).trans ?_)
  show combine (W7 m ρ c (Proc.devRef .tc main_v39)) (W7 m ρ c (Proc.devRef .tc main_v10)) (W7 m ρ c (Proc.devRef .tc main_v28_1)) (W7 m ρ c (Proc.devRef .tc main_arg6)) = _
  rw [at7_main_v39 m ρ c, at7_main_v10 m ρ c, at7_main_v28_1 m ρ c, at7_main_arg6 m ρ c]
  rfl

end Cert.KernelIdeal.Fold

end
-- ==== Proof.LibGatherThenScatterAdd.lean ====
/-
  Rows gathered at one list of indices and summed at another, read at an entry.

  A table y (N rows, C columns) is gathered at E start indices (row e of the result is the table's row at the start
  index of e, read signed and clamped into the table), and the gathered rows are added into an N × C array z at E
  scatter indices (row e lands on the row its scatter index names, read signed, or nowhere when that is outside the
  table). On the extended reals, where the order of the additions is immaterial, the result at (v, c) is z(v, c) plus
  the sum, over the edges e whose scatter index is v, of y(row(e), c). The same for a vector of E ones (or any
  vector) added into a vector of length N. The dimension records are arbitrary; their fields are fixed by hypotheses.
-/
import proofs.«105053_j57200374448341_2_alg».proof.Proof.LibRowGatherScatter

noncomputable section

open scoped BigOperators

open Idealize.ShloMosaic Idealize.ShloMosaic.ValueIdx

namespace RowGatherScatter

/-- GATHER THEN SCATTER-ADD AT (v, c): the operand's entry plus the sum over the edges into v of the table at the
    edge's (clamped) source row. -/
theorem scatterAdd_gather_rows_apply {φ : FTy} {N E C w : Nat} (hN : 0 < N)
    (g : GatherDims (⟨2, ![N, C]⟩ : Shape) (⟨2, ![E, 1]⟩ : Shape) (⟨2, ![E, C]⟩ : Shape))
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (d : ScatterDims (⟨2, ![N, C]⟩ : Shape) (⟨2, ![E, 1]⟩ : Shape) (⟨2, ![E, C]⟩ : Shape))
    (d1 : d.updateWindowDims = [1]) (d2 : d.insertedWindowDims = [0]) (d3 : d.scatterDimsToOperandDims = [0])
    (d4 : d.indexVectorDim = 1)
    (z y : FVec Ideal (⟨2, ![N, C]⟩ : Shape) φ) (idxS idxD : IVec (⟨2, ![E, 1]⟩ : Shape) w) (v : Fin N) (c : Fin C) :
    Host.scatterAdd (F := Ideal) d z idxD (Host.gather g y idxS) (ix2 v c)
      = z (ix2 v c) + ∑ e ∈ Finset.univ.filter (fun e : Fin E => (idxD (ix2 e 0)).toInt = (v.val : ℤ)),
          y (ix2 (grow hN idxS e) c) := by
  rw [scatterAdd_rows_apply d d1 d2 d3 d4]
  refine congrArg (z (ix2 v c) + ·) (Finset.sum_congr rfl fun e _ => ?_)
  exact gather_rows_apply hN g g1 g2 g3 g4 g5 g6 g7 y idxS e c

end RowGatherScatter

end
-- ==== Proof.LibHostLayout.lean ====
/-
  Host-side layout operations and sums read at coordinates.

  * a `broadcast_in_dim` of an `[a]` vector to a column `[a, 1]` (dimensions [0]) reads, at `(i, u)`, the vector at `i`;
    of a scalar to any shape (no dimensions) reads the scalar; of a column `[a, 1]` to `[a, b]` (dimensions [0, 1])
    reads, at `(i, k)`, the column at `i`; a column `[a, 1]` shape-cast to the row `[1, a]` reads, at `(u, i)`, the
    column at `i`;
  * the host's sum of an `[a, b]` array along its second axis is, at row `p`, the initial value plus the sum over
    `k` of the entries `(p, k)`;
  * the host's sum of a column `[a, 1]` over both axes is the initial value plus the sum over the rows, and a sum
    over the indices of a column is the sum over its rows.
-/
import Idealize.ShloMosaic.PureOps.Ideal.Laws
import Idealize.ShloMosaic.Lib.Pipeline.Value
import Idealize.ShloMosaic.Lib.ValueIdx

namespace Idealize.ShloMosaic.HostLayout

open Idealize.ShloMosaic Idealize.ShloMosaic.ValueIdx

variable {α : Type}

/-- An `[a]` vector broadcast to the column `[a, 1]` reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A scalar broadcast to any shape reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A column `[a, 1]` broadcast to `[a, b]` reads, at `(i, k)`, the column at `i`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (k : Fin b) :
    broadcastInDim ⟨2, ![a, b]⟩ ![0, 1] h x (ix2 i k) = x (ix2 i (0 : Fin 1)) := by
  refine broadcastInDim_apply _ h x (ix2 i k) (ix2 i (0 : Fin 1)) fun ax => ?_
  match ax with
  | ⟨0, _⟩ =>
    show i.val = if a = 1 then 0 else i.val
    split
    · have := i.isLt; omega
    · rfl
  | ⟨1, _⟩ => rfl

/-- A column `[a, 1]` cast to the row `[1, a]` reads, at `(u, i)`, the column at `(i, v)`, whatever the unit coordinates. -/
theorem shapeCast_a1_1a_apply {a : ℕ} (x : (⟨2, ![a, 1]⟩ : Shape).Idx → α)
    (h : (⟨2, ![a, 1]⟩ : Shape).ShapeCasts ⟨2, ![1, a]⟩) (u v : Fin 1) (i : Fin a) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

/-- Row `p` with column `k` inserted on the dropped axis is the index `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The host's sum along the rows: at row `p`, the initial value plus the sum over `k` of the entries `(p, k)`. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal)
    (p : Fin a) : Ideal.hostReduceAdd h' x init (ix1 p) = init + ∑ k : Fin b, x (ix2 p k) := by
  rw [Ideal.hostReduceAdd_single h' h]
  exact congrArg (init + ·) (Finset.sum_congr rfl fun k _ => congrArg x (lift_row h p k))

/-- A sum over the indices of a column is the sum over its rows. -/
theorem sum_column {M : Type*} [AddCommMonoid M] {a : ℕ} (g : (⟨2, ![a, 1]⟩ : Shape).Idx → M) :
    ∑ i, g i = ∑ p : Fin a, g (ix2 p (0 : Fin 1)) := by
  rw [sum_idx2]
  exact Finset.sum_congr rfl fun p _ => Fin.sum_univ_one _

/-- The host's sum of a column over both axes: the initial value plus the sum over the rows. -/
theorem hostReduceAdd_column {a : ℕ} (h' : (⟨2, ![a, 1]⟩ : Shape).ReducesTo [0, 1] ⟨0, ![]⟩)
    (x : (⟨2, ![a, 1]⟩ : Shape).Idx → EReal) (init : EReal) :
    Ideal.hostReduceAdd h' x init ix0 = init + ∑ p : Fin a, x (ix2 p (0 : Fin 1)) := by
  rw [Ideal.hostReduceAdd_total h' (fun b => b.elim0), sum_column]

end Idealize.ShloMosaic.HostLayout
-- ==== Proof.KLayer.lean ====
/-
  The idealized kernel's result is the two-layer network with the projection applied first.

  Read at an entry: the degree column is the floored count of the edges into the row; the rows gathered at the
  sources and summed at the targets are, at (v, q), zero plus the sum over the edges into v of the projected table
  at the edge's source row; so the first pipeline pair's output is the rectified first layer, and the second pair's
  output, fed with it, is the network.
-/
import proofs.«105053_j57200374448341_2_alg».proof.Proof.KFold
import proofs.«105053_j57200374448341_2_alg».proof.Proof.LibGatherThenScatterAdd
import proofs.«105053_j57200374448341_2_alg».proof.Proof.LibHostLayout

set_option maxRecDepth 16384

noncomputable section

open scoped BigOperators

open Idealize.ShloMosaic Idealize.ShloMosaic.TcCoe Idealize.SL.Sem Idealize.ShloMosaic.ValueIdx

namespace Cert.KernelIdeal.Fold

open Cert.KernelIdeal Cert.KernelIdeal.Gen SageLaw RowGatherScatter

variable (m : (ℓ : Loc nD τ sig) → Buf (Elt Ideal) ℓ) (c : Dev nD)

theorem hN : 0 < 50000 := by decide

/-- The node table, the two biases: the argument arrays as arrays of extended reals. -/
abbrev aX : Mat 50000 768 := m ((c : Thread nD τ).loc main_arg0)
abbrev aB1 : Vc 256 := m ((c : Thread nD τ).loc main_arg3)
abbrev aB2 : Vc 2 := m ((c : Thread nD τ).loc main_arg6)

/-- A scalar word broadcast to any shape reads the word everywhere. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w :=
  Idealize.ShloMosaic.HostLayout.broadcastInDim_scalar_apply _ h j

/-- The degree column at row v is the floored count of the edges into v. -/
theorem cntCol_apply (v : Fin 50000) : cntCol m c (ix2 v 0) = cnt (idxD m c) v := by
  unfold cntCol
  rw [Idealize.ShloMosaic.HostLayout.broadcastInDim_a_a1_apply]
  show max (Host.scatterAdd (F := Ideal) scatter_S50000_S250000x1_S250000_n_0_0_1 _ _ _ (ix1 v)) (broadcastInDim S50000 ![] bcast_S_S50000 (constant (F := Ideal) S_ .f32 0x3F800000#32) (ix1 v)) = _
  rw [scatterAdd_entries_apply scatter_S50000_S250000x1_S250000_n_0_0_1 rfl rfl rfl rfl, splat_apply, splat_apply]
  simp only [splat_apply]
  rfl

/-- The first layer's summed messages at (v, q). -/
theorem agg1_apply (v : Fin 50000) (q : Fin 256) :
    agg1 m c (ix2 v q) = zeroW + ∑ e ∈ into (idxD m c) v, ∑ k : Fin 768,
      aX m c (ix2 (grow hN (idxS m c) e) k) * w1lT m c (ix2 k q) := by
  unfold agg1
  show Host.scatterAdd (F := Ideal) (φ := .f32) scatter_S50000x256_S250000x1_S250000x256_1_0_0_1 _ (idxD m c)
    (Host.gather gather_S50000x256_S250000x1_S250000x256_1_0_n_n_0_1_1256 (y1 m c) (idxS m c)) (ix2 v q) = _
  rw [scatterAdd_gather_rows_apply hN gather_S50000x256_S250000x1_S250000x256_1_0_n_n_0_1_1256 rfl rfl rfl rfl rfl rfl rfl
    scatter_S50000x256_S250000x1_S250000x256_1_0_0_1 rfl rfl rfl rfl, splat_apply]
  rfl

/-- The second layer's summed messages at (v, q). -/
theorem agg2_apply (v : Fin 50000) (q : Fin 2) :
    agg2 m c (ix2 v q) = zeroW + ∑ e ∈ into (idxD m c) v, ∑ k : Fin 256,
      (hid m c : Mat 50000 256) (ix2 (grow hN (idxS m c) e) k) * w2lT m c (ix2 k q) := by
  unfold agg2
  show Host.scatterAdd (F := Ideal) (φ := .f32) scatter_S50000x2_S250000x1_S250000x2_1_0_0_1 _ (idxD m c)
    (Host.gather gather_S50000x2_S250000x1_S250000x2_1_0_n_n_0_1_12 (y2 m c) (idxS m c)) (ix2 v q) = _
  rw [scatterAdd_gather_rows_apply hN gather_S50000x2_S250000x1_S250000x2_1_0_n_n_0_1_12 rfl rfl rfl rfl rfl rfl rfl
    scatter_S50000x2_S250000x1_S250000x2_1_0_0_1 rfl rfl rfl rfl, splat_apply]
  rfl

/-- The hidden table is the rectified first layer. -/
theorem hid_eq : (hid m c : Mat 50000 256) = arr2 fun p q => relu (layerProjFirst hN (idxS m c) (idxD m c)
    (aX m c) (w1lT m c) (w1rT m c) (aB1 m c) p q) := by
  funext i
  obtain ⟨p, q, rfl⟩ : ∃ (p : Fin 50000) (q : Fin 256), i = ix2 p q := ⟨i 0, i 1, eq_ix2 i⟩
  unfold hid
  rw [combineRelu_ix2, arr2_ix2, agg1_apply, cntCol_apply]
  rfl

/-- THE KERNEL'S RESULT is the network with the projections first. -/
theorem out_eq : (out m c : Mat 50000 2) = arr2 (netProjFirst hN (idxS m c) (idxD m c) (aX m c)
    (w1lT m c) (w1rT m c) (aB1 m c) (w2lT m c) (w2rT m c) (aB2 m c)) := by
  funext i
  obtain ⟨p, q, rfl⟩ : ∃ (p : Fin 50000) (q : Fin 2), i = ix2 p q := ⟨i 0, i 1, eq_ix2 i⟩
  unfold out
  rw [combine_ix2, arr2_ix2, agg2_apply, cntCol_apply]
  unfold netProjFirst
  rw [← hid_eq m c]
  rfl

end Cert.KernelIdeal.Fold

end
-- ==== Proof.RefValue.lean ====
/-
  The idealized reference's result is the two-layer network with the mean taken first.

  The reference gathers the node table's rows at the sources, sums them at the targets, divides by the floored
  degree, and only then multiplies by the first matrix; adds the bias and the node's own row times the second matrix;
  rectifies; and does the same again on the hidden table. Read at an entry through the generated one-operation
  lemmas (a product as a sum over the contracted axis, a broadcast at the index it reads) and, for the two kinds of
  operation they do not read, through the gather-then-sum lemma, that is `netMeanFirst` of the arguments.
-/
import proofs.«105053_j57200374448341_2_alg».proof.Proof.Gen.ReferenceIdeal.Read
import proofs.«105053_j57200374448341_2_alg».proof.Proof.SageLaw
import proofs.«105053_j57200374448341_2_alg».proof.Proof.LibGatherThenScatterAdd

set_option maxRecDepth 16384

noncomputable section

open scoped BigOperators

open Idealize.ShloMosaic Idealize.ShloMosaic.TcCoe Idealize.SL.Sem Idealize.ShloMosaic.ValueIdx

namespace Cert.ReferenceIdeal.RefValue

open Cert.ReferenceIdeal Cert.ReferenceIdeal.Read SageLaw RowGatherScatter

theorem hN : 0 < 50000 := by decide

/-! ## The composed index functions at coordinates -/

theorem lidx24 (p : Fin 50000) (q : Fin 256) (k : Fin 768) : lidx_main_v24 (ix2 p q) k = (ix2 p k : S50000x768.Idx) :=
  funext fun a => Fin.ext (by match a with | ⟨0, _⟩ => rfl | ⟨1, _⟩ => rfl)
theorem ridx24 (p : Fin 50000) (q : Fin 256) (k : Fin 768) : ridx_main_v24 (ix2 p q) k = (ix2 k q : S768x256.Idx) :=
  funext fun a => Fin.ext (by match a with | ⟨0, _⟩ => rfl | ⟨1, _⟩ => rfl)
theorem lidx29 (p : Fin 50000) (q : Fin 256) (k : Fin 768) : lidx_main_v29 (ix2 p q) k = (ix2 p k : S50000x768.Idx) :=
  funext fun a => Fin.ext (by match a with | ⟨0, _⟩ => rfl | ⟨1, _⟩ => rfl)
theorem ridx29 (p : Fin 50000) (q : Fin 256) (k : Fin 768) : ridx_main_v29 (ix2 p q) k = (ix2 k q : S768x256.Idx) :=
  funext fun a => Fin.ext (by match a with | ⟨0, _⟩ => rfl | ⟨1, _⟩ => rfl)
theorem lidx52 (p : Fin 50000) (q : Fin 2) (k : Fin 256) : lidx_main_v52 (ix2 p q) k = (ix2 p k : S50000x256.Idx) :=
  funext fun a => Fin.ext (by match a with | ⟨0, _⟩ => rfl | ⟨1, _⟩ => rfl)
theorem ridx52 (p : Fin 50000) (q : Fin 2) (k : Fin 256) : ridx_main_v52 (ix2 p q) k = (ix2 k q : S256x2.Idx) :=
  funext fun a => Fin.ext (by match a with | ⟨0, _⟩ => rfl | ⟨1, _⟩ => rfl)
theorem lidx57 (p : Fin 50000) (q : Fin 2) (k : Fin 256) : lidx_main_v57 (ix2 p q) k = (ix2 p k : S50000x256.Idx) :=
  funext fun a => Fin.ext (by match a with | ⟨0, _⟩ => rfl | ⟨1, _⟩ => rfl)
theorem ridx57 (p : Fin 50000) (q : Fin 2) (k : Fin 256) : ridx_main_v57 (ix2 p q) k = (ix2 k q : S256x2.Idx) :=
  funext fun a => Fin.ext (by match a with | ⟨0, _⟩ => rfl | ⟨1, _⟩ => rfl)
theorem idx26_25 (p : Fin 50000) (q : Fin 256) : idx_main_v25 (idx_main_v26 (ix2 p q)) = (ix1 q : S256.Idx) :=
  funext fun a => Fin.ext (by match a with | ⟨0, _⟩ => rfl)
theorem idx54_53 (p : Fin 50000) (q : Fin 2) : idx_main_v53 (idx_main_v54 (ix2 p q)) = (ix1 q : S2.Idx) :=
  funext fun a => Fin.ext (by match a with | ⟨0, _⟩ => rfl)
theorem idx21_20 (p : Fin 50000) (k : Fin 768) : idx_main_v20 (idx_main_v21 (ix2 p k)) = (ix1 p : S50000.Idx) :=
  funext fun a => Fin.ext (by match a with | ⟨0, _⟩ => rfl)
theorem idx49_48 (p : Fin 50000) (k : Fin 256) : idx_main_v48 (idx_main_v49 (ix2 p k)) = (ix1 p : S50000.Idx) :=
  funext fun a => Fin.ext (by match a with | ⟨0, _⟩ => rfl)

variable (x0 : (⟨S50000x768, .f32⟩ : BufTy).Contents (Elt Ideal)) (x1 : (⟨S2x250000, .i32⟩ : BufTy).Contents (Elt Ideal))
  (x2 : (⟨S256x768, .f32⟩ : BufTy).Contents (Elt Ideal)) (x3 : (⟨S256, .f32⟩ : BufTy).Contents (Elt Ideal)) (x4 : (⟨S256x768, .f32⟩ : BufTy).Contents (Elt Ideal))
  (x5 : (⟨S2x256, .f32⟩ : BufTy).Contents (Elt Ideal)) (x6 : (⟨S2, .f32⟩ : BufTy).Contents (Elt Ideal)) (x7 : (⟨S2x256, .f32⟩ : BufTy).Contents (Elt Ideal))

/-- The column of start indices of the gathers (the sources, a negative one wrapped). -/
abbrev idxS : IVec S250000x1 32 := val_main_v9 (F := Ideal) x1
/-- The column of scatter indices (the targets). -/
abbrev idxD : IVec S250000x1 32 := val_main_v12 (F := Ideal) x1

/-! ## The degree, at both layers -/

theorem cnt1_apply (p : Fin 50000) (k : Fin 768) : val_main_v21 (F := Ideal) x1 (ix2 p k) = cnt (idxD x1) p := by
  rw [val_main_v21_apply, val_main_v20_apply, idx21_20, val_main_v19_apply]
  unfold val_main_v17
  rw [scatterAdd_entries_apply scatter_S50000_S250000x1_S250000_n_0_0_1 rfl rfl rfl rfl]
  simp only [val_main_v15_apply, val_main_cst_2_apply, val_main_v14_apply, val_main_cst_1_apply, val_main_v18_apply, val_main_cst_3_apply]
  rfl

theorem cnt2_apply (p : Fin 50000) (k : Fin 256) : val_main_v49 (F := Ideal) x1 (ix2 p k) = cnt (idxD x1) p := by
  rw [val_main_v49_apply, val_main_v48_apply, idx49_48, val_main_v47_apply]
  unfold val_main_v45
  rw [scatterAdd_entries_apply scatter_S50000_S250000x1_S250000_n_0_0_1 rfl rfl rfl rfl]
  simp only [val_main_v43_apply, val_main_cst_8_apply, val_main_v42_apply, val_main_cst_7_apply, val_main_v46_apply, val_main_cst_9_apply]
  rfl

/-! ## The rows gathered at the sources and summed at the targets -/

theorem aggx_apply (p : Fin 50000) (k : Fin 768) : val_main_v13 (F := Ideal) x0 x1 (ix2 p k)
    = zeroW + ∑ e ∈ into (idxD x1) p, (x0 : Mat 50000 768) (ix2 (grow hN (idxS x1) e) k) := by
  unfold val_main_v13 val_main_v10
  show Host.scatterAdd (F := Ideal) (φ := .f32) scatter_S50000x768_S250000x1_S250000x768_1_0_0_1 _ (idxD x1)
    (Host.gather gather_S50000x768_S250000x1_S250000x768_1_0_n_n_0_1_1768 x0 (idxS x1)) (ix2 p k) = _
  rw [scatterAdd_gather_rows_apply hN gather_S50000x768_S250000x1_S250000x768_1_0_n_n_0_1_1768 rfl rfl rfl rfl rfl rfl rfl
    scatter_S50000x768_S250000x1_S250000x768_1_0_0_1 rfl rfl rfl rfl]
  simp only [val_main_v11_apply, val_main_cst_apply]
  rfl

theorem aggh_apply (p : Fin 50000) (k : Fin 256) : val_main_v41 (F := Ideal) x0 x1 x2 x3 x4 (ix2 p k)
    = zeroW + ∑ e ∈ into (idxD x1) p, (val_main_v31 (F := Ideal) x0 x1 x2 x3 x4 : Mat 50000 256) (ix2 (grow hN (idxS x1) e) k) := by
  unfold val_main_v41 val_main_v38
  show Host.scatterAdd (F := Ideal) (φ := .f32) scatter_S50000x256_S250000x1_S250000x256_1_0_0_1 _ (idxD x1)
    (Host.gather gather_S50000x256_S250000x1_S250000x256_1_0_n_n_0_1_1256 (val_main_v31 (F := Ideal) x0 x1 x2 x3 x4) (idxS x1)) (ix2 p k) = _
  rw [scatterAdd_gather_rows_apply hN gather_S50000x256_S250000x1_S250000x256_1_0_n_n_0_1_1256 rfl rfl rfl rfl rfl rfl rfl
    scatter_S50000x256_S250000x1_S250000x256_1_0_0_1 rfl rfl rfl rfl]
  simp only [val_main_v39_apply, val_main_cst_6_apply]
  rfl

/-! ## The two layers -/

/-- The hidden table is the rectified first layer, the mean taken first. -/
theorem hidden_eq : (val_main_v31 (F := Ideal) x0 x1 x2 x3 x4 : Mat 50000 256)
    = arr2 fun p q => relu (layerMeanFirst hN (idxS x1) (idxD x1) x0 (val_main_v23 (F := Ideal) x2) (val_main_v28 (F := Ideal) x4) x3 p q) := by
  funext i
  obtain ⟨p, q, rfl⟩ : ∃ (p : Fin 50000) (q : Fin 256), i = ix2 p q := ⟨i 0, i 1, eq_ix2 i⟩
  rw [val_main_v31_apply, val_main_v30_apply, val_main_v27_apply, val_main_v24_apply, val_main_v29_apply, val_main_v26_apply,
    val_main_v25_apply, idx26_25, val_main_call0_v0_apply, val_main_call0_cst_apply]
  simp only [lidx24, ridx24, lidx29, ridx29, val_main_v22_apply, aggx_apply, cnt1_apply]
  rfl

/-- THE REFERENCE'S RESULT is the network with the mean first. -/
theorem out_eq : (val_main_v58 (F := Ideal) x0 x1 x2 x3 x4 x5 x6 x7 : Mat 50000 2)
    = arr2 (netMeanFirst hN (idxS x1) (idxD x1) x0 (val_main_v23 (F := Ideal) x2) (val_main_v28 (F := Ideal) x4) x3
        (val_main_v51 (F := Ideal) x5) (val_main_v56 (F := Ideal) x7) x6) := by
  funext i
  obtain ⟨p, q, rfl⟩ : ∃ (p : Fin 50000) (q : Fin 2), i = ix2 p q := ⟨i 0, i 1, eq_ix2 i⟩
  rw [val_main_v58_apply, val_main_v55_apply, val_main_v52_apply, val_main_v57_apply, val_main_v54_apply, val_main_v53_apply,
    idx54_53]
  simp only [lidx52, ridx52, lidx57, ridx57, val_main_v50_apply, aggh_apply, cnt2_apply]
  rw [arr2_ix2]
  unfold netMeanFirst
  rw [← hidden_eq x0 x1 x2 x3 x4]
  rfl

end Cert.ReferenceIdeal.RefValue

end
-- ==== Proof.Finite.lean ====
/-
  From the precondition to "every entry is a real number".

  The precondition says, of each of the seven float arguments, that every entry's absolute value is below +∞, all
  seven conjoined. On the extended reals `max x (−x) < ⊤` holds exactly when x is neither ⊤ nor ⊥, that is, when x is
  (the image of) a real number. The conjunction is split word by word, each "for all entries" is read off its
  and-reduction, and the entry fact is the comparison unfolded.
-/
import proofs.«105053_j57200374448341_2_alg».proof.Pre_finite_inputs
import proofs.«105053_j57200374448341_2_alg».proof.Proof.LibRealSums
import Idealize.ShloMosaic.Lib.ReduceAll
import Idealize.ShloMosaic.Lib.Affine
import Idealize.ShloMosaic.Lib.ValueIdx
import Idealize.ShloMosaic.PureOps.Ideal

noncomputable section

open Idealize.ShloMosaic RealSums

namespace Cert.Pre_finite_inputs.Finite

open Cert.Pre_finite_inputs

instance : Subsingleton S_.Idx := ⟨fun a b => funext fun d => d.elim0⟩

/-- An extended real whose absolute value is below the word of +∞ is real. -/
theorem isReal_of_abs_lt_inf (x : EReal)
    (h : FloatOps.cmpf (F := Ideal) (φ := .f32) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have hlt : max x (-x) < ⊤ := by
    by_contra hn
    simp [hn] at h
  rw [max_lt_iff] at hlt
  refine isReal_iff_ne.mpr ⟨?_, ne_of_lt hlt.1⟩
  intro hb
  rw [hb] at hlt
  simp at hlt

variable [Facts]

/-- Every entry of every float argument is real when the precondition's word is one. -/
theorem reals_of_pre (a0 : FVec Ideal S50000x768 .f32) (a1 : IVec S2x250000 32) (a2 : FVec Ideal S256x768 .f32)
    (a3 : FVec Ideal S256 .f32) (a4 : FVec Ideal S256x768 .f32) (a5 : FVec Ideal S2x256 .f32) (a6 : FVec Ideal S2 .f32)
    (a7 : FVec Ideal S2x256 .f32) (hpre : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have h0 := congrFun hpre ValueIdx.ix0
  unfold fn fn_part1 at h0
  dsimp only at h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨fun i => isReal_of_abs_lt_inf _ (Host.reduce_andi_all _ _ _ _ _ e0 i),
    fun i => isReal_of_abs_lt_inf _ (Host.reduce_andi_all _ _ _ _ _ e2 i),
    fun i => isReal_of_abs_lt_inf _ (Host.reduce_andi_all _ _ _ _ _ e3 i),
    fun i => isReal_of_abs_lt_inf _ (Host.reduce_andi_all _ _ _ _ _ e4 i),
    fun i => isReal_of_abs_lt_inf _ (Host.reduce_andi_all _ _ _ _ _ e5 i),
    fun i => isReal_of_abs_lt_inf _ (Host.reduce_andi_all _ _ _ _ _ e6 i),
    fun i => isReal_of_abs_lt_inf _ (Host.reduce_andi_all _ _ _ _ _ e7 i)⟩

end Cert.Pre_finite_inputs.Finite

end
-- ==== Proof.LibTransposedEntry.lean ====
/-
  A transposed matrix read at an entry.

  Transposing an `N × K` matrix by the permutation [1, 0] gives the `K × N` matrix whose entry (k, q) is the
  operand's entry (q, k). Any extents and any element type; imports only the library.
-/
import Idealize.ShloMosaic.Lib.Pipeline.Value
import Idealize.ShloMosaic.Lib.ValueIdx

namespace Idealize.ShloMosaic.TransposedEntry

open Idealize.ShloMosaic Idealize.ShloMosaic.ValueIdx

/-- `transpose [K, N] [1, 0] w` at (k, q) is `w` at (q, k). -/
theorem transposed_apply {α : Type} {N K : ℕ} (w : (⟨2, ![N, K]⟩ : Shape).Idx → α)
    (h : (⟨2, ![N, K]⟩ : Shape).Transposes [1, 0] ⟨2, ![K, N]⟩) (k : Fin K) (q : Fin N) :
    transpose (⟨2, ![K, N]⟩ : Shape) [1, 0] w h (ix2 k q) = w (ix2 q k) :=
  transpose_apply [1, 0] w h (ix2 k q) (ix2 q k) (fun b => by
    match b with
    | ⟨0, _⟩ => rfl
    | ⟨1, _⟩ => rfl)

end Idealize.ShloMosaic.TransposedEntry
-- ==== Proof.Bridge.lean ====
/-
  The two programs compute one function.

  The idealized kernel's result is the two-layer mean-aggregation network with the projections applied before the
  neighbours are summed; the idealized reference's is the same network with the neighbours averaged first. Both read
  the same index columns (the sources, a negative one wrapped; the targets), the same transposed matrices and the same
  biases off the arguments, so the two sides are the two forms of ONE network at the same data, and the forms agree
  when every float input is a real number — which the precondition says: a transposed matrix of reals is a matrix
  of reals.
-/
import proofs.«105053_j57200374448341_2_alg».proof.Proof.KLayer
import proofs.«105053_j57200374448341_2_alg».proof.Proof.RefValue
import proofs.«105053_j57200374448341_2_alg».proof.Proof.Finite
import proofs.«105053_j57200374448341_2_alg».proof.Proof.LibTransposedEntry

set_option maxRecDepth 16384

noncomputable section

open Idealize.ShloMosaic Idealize.ShloMosaic.TcCoe Idealize.SL.Sem Idealize.ShloMosaic.ValueIdx RealSums

namespace Cert.Bridge

open SageLaw

/-- A transposed matrix of reals is a matrix of reals. -/
theorem isReal_transposed {N K : ℕ} (w : (⟨2, ![N, K]⟩ : Shape).Idx → EReal)
    (h : (⟨2, ![N, K]⟩ : Shape).Transposes [1, 0] ⟨2, ![K, N]⟩) (hw : ∀ i, IsReal (w i)) (i : (⟨2, ![K, N]⟩ : Shape).Idx) :
    IsReal (transpose (⟨2, ![K, N]⟩ : Shape) [1, 0] w h i) := by
  obtain ⟨k, q, rfl⟩ : ∃ (k : Fin K) (q : Fin N), i = ix2 k q := ⟨i 0, i 1, eq_ix2 i⟩
  rw [Idealize.ShloMosaic.TransposedEntry.transposed_apply]
  exact hw _

variable [Cert.Pre_finite_inputs.Facts]

/-- THE RESULTS AGREE: the reference's result term at the kernel's arguments is the kernel's folded result, when
    the precondition holds of them. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) :
    Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Fold.out m c := by
  obtain ⟨r0, r2, r3, r4, r5, r6, r7⟩ := Cert.Pre_finite_inputs.Finite.reals_of_pre _ _ _ _ _ _ _ _ hpre
  refine (Cert.ReferenceIdeal.RefValue.out_eq _ _ _ _ _ _ _ _).trans (Eq.trans ?_ (Cert.KernelIdeal.Fold.out_eq m c).symm)
  refine congrArg arr2 (funext fun v => funext fun q => ?_)
  refine Eq.trans ?_ (net_eq Cert.KernelIdeal.Fold.hN (Cert.KernelIdeal.Fold.idxS m c) (Cert.KernelIdeal.Fold.idxD m c)
    (m ((c.tc : Thread Cert.KernelIdeal.nD Cert.KernelIdeal.τ).loc Cert.KernelIdeal.main_arg0)) (Cert.KernelIdeal.Fold.w1lT m c) (Cert.KernelIdeal.Fold.w1rT m c) (m ((c.tc : Thread Cert.KernelIdeal.nD Cert.KernelIdeal.τ).loc Cert.KernelIdeal.main_arg3))
    (Cert.KernelIdeal.Fold.w2lT m c) (Cert.KernelIdeal.Fold.w2rT m c) (m ((c.tc : Thread Cert.KernelIdeal.nD Cert.KernelIdeal.τ).loc Cert.KernelIdeal.main_arg6))
    r0 (isReal_transposed _ _ r2) (isReal_transposed _ _ r4) r3 (isReal_transposed _ _ r5) v q).symm
  rfl

end Cert.Bridge

end
-- ==== Proof.lean ====
/-
  The certificate of a two-layer graph network (mean aggregation over the edges into a node, a linear map of the
  aggregate, a bias, a linear map of the node's own features; the first layer rectified): a kernel that projects the
  node table through each layer's matrices BEFORE the neighbours' rows are gathered and summed, against a reference
  that averages the neighbours' rows first and projects the average.

  The three frames: the two kernel programs' are the generated frame certificates; the reference's is its generated
  run with the result dropped. The idealization rewrote nothing, so that conjunct is trivial. The algebraic conjunct:
  the idealized kernel's run leaves in the result array the fold of its eight segments (Proof/KRun.lean), which is
  named level by level (Proof/KFold.lean over the four pipelines' whole-array functions, Proof/KProject0.lean,
  Proof/KCombine1.lean, Proof/KProject2.lean, Proof/KCombine3.lean) and read as the network with the projections
  first (Proof/KLayer.lean); the reference's generated run leaves the network with the mean first
  (Proof/RefValue.lean); the two forms agree on real data (Proof/SageLaw.lean), which the precondition provides
  (Proof/Finite.lean), at the same index columns, matrices and biases (Proof/Bridge.lean).
-/
import proofs.«105053_j57200374448341_2_alg».proof.Defs
import proofs.«105053_j57200374448341_2_alg».proof.Proof.Gen.Kernel
import proofs.«105053_j57200374448341_2_alg».proof.Proof.Gen.Kernel.Skeleton
import proofs.«105053_j57200374448341_2_alg».proof.Proof.Gen.Kernel.Launch
import proofs.«105053_j57200374448341_2_alg».proof.Proof.Gen.Kernel.Points
import proofs.«105053_j57200374448341_2_alg».proof.Proof.Gen.Kernel.Frame
import proofs.«105053_j57200374448341_2_alg».proof.Proof.Gen.KernelIdeal
import proofs.«105053_j57200374448341_2_alg».proof.Proof.Gen.KernelIdeal.Skeleton
import proofs.«105053_j57200374448341_2_alg».proof.Proof.Gen.KernelIdeal.Launch
import proofs.«105053_j57200374448341_2_alg».proof.Proof.Gen.KernelIdeal.Points
import proofs.«105053_j57200374448341_2_alg».proof.Proof.Gen.KernelIdeal.Frame
import proofs.«105053_j57200374448341_2_alg».proof.Proof.Gen.ReferenceIdeal
import proofs.«105053_j57200374448341_2_alg».proof.Proof.Gen.Pre_finite_inputs
import proofs.«105053_j57200374448341_2_alg».proof.Proof.Gen.ReferenceIdeal.Run
import proofs.«105053_j57200374448341_2_alg».proof.Proof.Gen.ReferenceIdeal.Read
import proofs.«105053_j57200374448341_2_alg».proof.Proof.KRun
import proofs.«105053_j57200374448341_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the kernel's folded result: the kernel's by its run and the fold, the
    reference's by its generated run, the agreement of the arguments, and the equality of the two networks. -/
theorem algebraic : Cert.algebraic_KernelIdeal_ReferenceIdeal := by
  intro m ρ m' ρ' hpre hagree
  refine ⟨fun c => Cert.KernelIdeal.Fold.out m c, ?_, ?_⟩
  · exact (θ_run Cert.KernelIdeal.defs _ _).mono
      (fun r h c => ⟨(h c).1.trans (Cert.KernelIdeal.Fold.at8_main_v40 m ρ c), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, e0, e1, e2, e3, e4, e5, e6, e7]
    exact Cert.Bridge.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
